-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64x64 .f32) (main_arg11 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 72
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S1x64, .f32⟩
  | .hbm, ⟨39, _⟩ => ⟨S100000x64, .bf16⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .bf16⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S1x64, .f32⟩
  | .hbm, ⟨55, _⟩ => ⟨S100000x64, .bf16⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .bf16⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S1x64, .f32⟩
  | .hbm, ⟨71, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .bf16⟩
  | .local _ .vmem, ⟨12, _⟩ => ⟨S5000x64, .bf16⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .bf16⟩
  | .local _ .vmem, ⟨21, _⟩ => ⟨S5000x64, .bf16⟩
  | .local _ .vmem, ⟨22, _⟩ => ⟨S5000x64, .bf16⟩
  | .local _ .vmem, ⟨23, _⟩ => ⟨S5000x64, .bf16⟩
  | .local _ .vmem, ⟨24, _⟩ => ⟨S5000x64, .f32⟩
  | .local _ .vmem, ⟨25, _⟩ => ⟨S5000x64, .f32⟩
  | .local _ .vmem, ⟨26, _⟩ => ⟨S5000x1, .f32⟩
  | .local _ .vmem, ⟨27, _⟩ => ⟨S5000x1, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .bf16 = 32 ∨ (Rect.block (s := S100000x64) S5000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .bf16 = 32 ∨ (Rect.block (s := S100000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .bf16 = 32 ∨ (Rect.block (s := S100000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .bf16 = 32 ∨ (Rect.block (s := S100000x64) S5000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v33) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Run.lean ====
/-
  The idealized kernel program's run, with its RESULT named.

  The program is six segments: three stretches of host operations (degrees and their reciprocals, and before each
  layer the gather of the source rows and the scatter-add into the destination rows) and three regions, one per layer.
  The buffer contents at the segment boundaries are a fold through the program (`W1 … W6` of the frame module): a
  stretch applies its operations, a region replaces its arrays by what its write-backs leave. The run below is the
  program launched over these segments: every weakly fair execution terminates, nothing faulting, and the final state
  is read against the last boundary's contents `W6`: each argument array there is the launch memory's (no stretch and
  no region writes an argument), and the result array is `W6` at the result's buffer, which the later modules compute.
-/
import proofs.«166750_j24326694764904_2_alg».proof.Proof.Patched.KernelIdeal.Frame

set_option maxRecDepth 16384

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the twelve argument arrays as launched. -/
theorem run_result : θ_run defs (onTc (τ := τ) (main (F := F))) ⟨m, fun _ => 0, ρ⟩ (fun r => ∀ c : Dev nD,
      r.2.mem ((c.tc : Thread nD τ).loc main_v46) = W6 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v46 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.Sage.Run

end
-- ==== Proof.Layer.lean ====
/-
  The mathematics of one GraphSAGE layer on the extended reals, as ONE function of the arrays it reads.

  For a node `r` and an output feature `q` the layer's value before the activation is

      Σ_k h[r,k] · Wself[k,q]  +  Σ_k (msum[r,k] · dinv[r,0]) · Wneigh[k,q]  +  b[0,q]

  where `h` holds the node features, `msum` the sum of the neighbours' features, `dinv` the reciprocal of the
  clamped in-degree (one column), and `b` the bias as one row. The two hidden layers take the maximum of this
  with zero. Both programs compute this same function layer by layer: the kernel on row blocks of 5000 nodes
  through the matrix unit, the reference through two whole contractions; the grouping of the three summands is the
  same on both sides, so no law of the extended reals beyond reading both sides at an index is needed.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The layer before its activation at node `r`, feature `q`: the self term, the mean-neighbour term, the bias,
    added in that grouping. -/
def pre (h msum : (⟨2, ![100000, 64]⟩ : Shape).Idx → EReal) (dinv : (⟨2, ![100000, 1]⟩ : Shape).Idx → EReal)
    (ws wn : (⟨2, ![64, 64]⟩ : Shape).Idx → EReal) (b : (⟨2, ![1, 64]⟩ : Shape).Idx → EReal)
    (r : Fin 100000) (q : Fin 64) : EReal :=
  ((∑ k : Fin 64, h (ix2 r k) * ws (ix2 k q))
    + ∑ k : Fin 64, (msum (ix2 r k) * dinv (ix2 r (0 : Fin 1))) * wn (ix2 k q))
    + b (ix2 (0 : Fin 1) q)

/-- A layer without activation (the last one), as a whole array. -/
def layerLin (h msum : (⟨2, ![100000, 64]⟩ : Shape).Idx → EReal) (dinv : (⟨2, ![100000, 1]⟩ : Shape).Idx → EReal)
    (ws wn : (⟨2, ![64, 64]⟩ : Shape).Idx → EReal) (b : (⟨2, ![1, 64]⟩ : Shape).Idx → EReal) :
    (⟨2, ![100000, 64]⟩ : Shape).Idx → EReal :=
  fun i => pre h msum dinv ws wn b (i 0) (i 1)

/-- A layer followed by the maximum with zero (the two hidden layers), as a whole array. -/
def layerRelu (h msum : (⟨2, ![100000, 64]⟩ : Shape).Idx → EReal) (dinv : (⟨2, ![100000, 1]⟩ : Shape).Idx → EReal)
    (ws wn : (⟨2, ![64, 64]⟩ : Shape).Idx → EReal) (b : (⟨2, ![1, 64]⟩ : Shape).Idx → EReal) :
    (⟨2, ![100000, 64]⟩ : Shape).Idx → EReal :=
  fun i => max (pre h msum dinv ws wn b (i 0) (i 1)) 0

theorem layerLin_apply (h msum : (⟨2, ![100000, 64]⟩ : Shape).Idx → EReal) (dinv : (⟨2, ![100000, 1]⟩ : Shape).Idx → EReal)
    (ws wn : (⟨2, ![64, 64]⟩ : Shape).Idx → EReal) (b : (⟨2, ![1, 64]⟩ : Shape).Idx → EReal) (r : Fin 100000) (q : Fin 64) :
    layerLin h msum dinv ws wn b (ix2 r q) = pre h msum dinv ws wn b r q := rfl

theorem layerRelu_apply (h msum : (⟨2, ![100000, 64]⟩ : Shape).Idx → EReal) (dinv : (⟨2, ![100000, 1]⟩ : Shape).Idx → EReal)
    (ws wn : (⟨2, ![64, 64]⟩ : Shape).Idx → EReal) (b : (⟨2, ![1, 64]⟩ : Shape).Idx → EReal) (r : Fin 100000) (q : Fin 64) :
    layerRelu h msum dinv ws wn b (ix2 r q) = max (pre h msum dinv ws wn b r q) 0 := rfl

end Cert.Sage

end
-- ==== Proof.Body.lean ====
/-
  The arithmetic of one row block, read at an index.

  Each of the three kernel bodies loads a block of 5000 node rows (features, neighbour sums, the reciprocal-degree
  column), the two 64×64 weight matrices and the bias row, and stores
      [max(·, 0)]  ( block · Wself  +  (sums ⊙ column) · Wneigh  +  bias ).
  On the extended reals the changes of float format are the identity and a matrix-unit product into a zero
  accumulator is the plain sum over the contracted axis, so the stored value at row `p`, feature `q` is
      Σ_k x0[p,k]·x3[k,q] + Σ_k (x1[p,k]·x2[p,0])·x4[k,q] + x5[0,q]
  (its maximum with zero in the two hidden layers). `pre_block` then says: when the block's rows are rows of whole
  arrays, that value is the whole layer's value `Cert.Sage.pre` at the corresponding node.
-/
import proofs.«166750_j24326694764904_2_alg».proof.Proof.Gen.KernelIdeal.Skeleton
import proofs.«166750_j24326694764904_2_alg».proof.Proof.Layer
import Idealize.ShloMosaic.PureOps.Ideal.Laws
import Idealize.ShloMosaic.Lib.ValueIdx
import Idealize.ShloMosaic.Lib.ValueLayout
import Idealize.ShloMosaic.Lib.Pipeline.Value

noncomputable section

namespace Cert.Sage.Body

open Idealize.ShloMosaic Idealize.ShloMosaic.ValueIdx Cert.KernelIdeal Cert.KernelIdeal.Gen

/-! ## The block product as a sum over the 64 contracted features -/

/-- The left operand of the block product is read at the output's row. -/
theorem lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- The right operand of the block product is read at the output's column. -/
theorem rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000,64]·[64,64] product into a zero accumulator, at row `p` and column `q`: Σ_k l[p,k]·w[k,q]. -/
theorem matmul_blk {φ₁ φ₂ : FTy} (l : FVec Ideal S5000x64 φ₁) (w : FVec Ideal S64x64 φ₂) (p : Fin 5000) (q : Fin 64) :
    FloatOps.matmul dot_S5000x64_S64x64_S5000x64_1_0_0_1_n_n none l w (constant S5000x64 .f32 0x00000000#32) (ix2 p q)
      = ∑ k : Fin 64, l (ix2 p k) * w (ix2 k q) := by
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhs1 _ _)
  rw [el, er]

/-! ## The two broadcasts and the zero -/

/-- The reciprocal-degree column spread over the 64 features: every feature of row `p` reads the column's row `p`. -/
theorem broadcastTo_col {α : Type} (v : S5000x1.Idx → α) (h : S5000x1.Broadcasts S5000x64) (p : Fin 5000) (c : Fin 64) :
    broadcastTo S5000x64 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The bias row spread over the 5000 rows: every row reads the bias at its feature. -/
theorem broadcastTo_row {α : Type} (v : S1x64.Idx → α) (h : S1x64.Broadcasts S5000x64) (p : Fin 5000) (c : Fin 64) :
    broadcastTo S5000x64 v h (ix2 p c) = v (ix2 (0 : Fin 1) c) :=
  broadcastTo_1b_ab_apply v h p c

/-- The all-zero word is the real number zero. -/
theorem zero_word : (FloatOps.ofBits (F := Ideal) .f32 0x00000000#32) = (0 : EReal) := Ideal.ofBits_zero_f32

/-! ## What each body stores, at row `p` and feature `q` of the block -/

theorem pay0_apply (x0 : Vec Ideal S5000x64 .f32) (x1 : Vec Ideal S5000x64 .f32) (x2 : Vec Ideal S5000x1 .f32) (x3 x4 : Vec Ideal S64x64 .f32) (x5 : Vec Ideal S1x64 .f32) (p : Fin 5000) (q : Fin 64) :
    k0_pay1 (F := Ideal) x0 x1 x2 x3 x4 x5 (ix2 p q)
      = max (((∑ k : Fin 64, x0 (ix2 p k) * x3 (ix2 k q))
          + ∑ k : Fin 64, (x1 (ix2 p k) * x2 (ix2 p (0 : Fin 1))) * x4 (ix2 k q)) + x5 (ix2 (0 : Fin 1) q)) 0 := by
  unfold k0_pay1
  show max ((FloatOps.matmul (F := Ideal) (φ₁ := .bf16) (φ₂ := .bf16) dot_S5000x64_S64x64_S5000x64_1_0_0_1_n_n none x0 x3 (constant (F := Ideal) S5000x64 .f32 0x00000000#32) (ix2 p q)
        + FloatOps.matmul (F := Ideal) (φ₁ := .bf16) (φ₂ := .bf16) dot_S5000x64_S64x64_S5000x64_1_0_0_1_n_n none (mulf (F := Ideal) (φ := .f32) (shapeCast S5000x64 x1 shapeCasts_S5000x64_S5000x64) (broadcastTo S5000x64 (shapeCast S5000x1 x2 shapeCasts_S5000x1_S5000x1) broadcasts_S5000x1_S5000x64)) x4 (constant (F := Ideal) S5000x64 .f32 0x00000000#32) (ix2 p q))
        + broadcastTo S5000x64 (shapeCast S1x64 x5 shapeCasts_S1x64_S1x64) broadcasts_S1x64_S5000x64 (ix2 p q)) (FloatOps.ofBits (F := Ideal) .f32 0x00000000#32) = _
  rw [matmul_blk, matmul_blk, shapeCast_self, shapeCast_self, shapeCast_self, broadcastTo_row, zero_word]
  refine congrArg (fun s => max ((_ + s) + _) 0) (Finset.sum_congr rfl fun k _ => ?_)
  show (x1 (ix2 p k) * broadcastTo S5000x64 x2 broadcasts_S5000x1_S5000x64 (ix2 p k)) * x4 (ix2 k q) = _
  rw [broadcastTo_col]

theorem pay1_apply (x0 : Vec Ideal S5000x64 .bf16) (x1 : Vec Ideal S5000x64 .f32) (x2 : Vec Ideal S5000x1 .f32) (x3 x4 : Vec Ideal S64x64 .f32) (x5 : Vec Ideal S1x64 .f32) (p : Fin 5000) (q : Fin 64) :
    k1_pay1 (F := Ideal) x0 x1 x2 x3 x4 x5 (ix2 p q)
      = max (((∑ k : Fin 64, x0 (ix2 p k) * x3 (ix2 k q))
          + ∑ k : Fin 64, (x1 (ix2 p k) * x2 (ix2 p (0 : Fin 1))) * x4 (ix2 k q)) + x5 (ix2 (0 : Fin 1) q)) 0 := by
  unfold k1_pay1
  show max ((FloatOps.matmul (F := Ideal) (φ₁ := .bf16) (φ₂ := .bf16) dot_S5000x64_S64x64_S5000x64_1_0_0_1_n_n none (shapeCast S5000x64 x0 shapeCasts_S5000x64_S5000x64) x3 (constant (F := Ideal) S5000x64 .f32 0x00000000#32) (ix2 p q)
        + FloatOps.matmul (F := Ideal) (φ₁ := .bf16) (φ₂ := .bf16) dot_S5000x64_S64x64_S5000x64_1_0_0_1_n_n none (mulf (F := Ideal) (φ := .f32) (shapeCast S5000x64 x1 shapeCasts_S5000x64_S5000x64) (broadcastTo S5000x64 (shapeCast S5000x1 x2 shapeCasts_S5000x1_S5000x1) broadcasts_S5000x1_S5000x64)) x4 (constant (F := Ideal) S5000x64 .f32 0x00000000#32) (ix2 p q))
        + broadcastTo S5000x64 (shapeCast S1x64 x5 shapeCasts_S1x64_S1x64) broadcasts_S1x64_S5000x64 (ix2 p q)) (FloatOps.ofBits (F := Ideal) .f32 0x00000000#32) = _
  rw [matmul_blk, matmul_blk, shapeCast_self, shapeCast_self, shapeCast_self, shapeCast_self, broadcastTo_row, zero_word]
  refine congrArg (fun s => max ((_ + s) + _) 0) (Finset.sum_congr rfl fun k _ => ?_)
  show (x1 (ix2 p k) * broadcastTo S5000x64 x2 broadcasts_S5000x1_S5000x64 (ix2 p k)) * x4 (ix2 k q) = _
  rw [broadcastTo_col]

theorem pay2_apply (x0 : Vec Ideal S5000x64 .bf16) (x1 : Vec Ideal S5000x64 .f32) (x2 : Vec Ideal S5000x1 .f32) (x3 x4 : Vec Ideal S64x64 .f32) (x5 : Vec Ideal S1x64 .f32) (p : Fin 5000) (q : Fin 64) :
    k2_pay1 (F := Ideal) x0 x1 x2 x3 x4 x5 (ix2 p q)
      = ((∑ k : Fin 64, x0 (ix2 p k) * x3 (ix2 k q))
          + ∑ k : Fin 64, (x1 (ix2 p k) * x2 (ix2 p (0 : Fin 1))) * x4 (ix2 k q)) + x5 (ix2 (0 : Fin 1) q) := by
  unfold k2_pay1
  show (FloatOps.matmul (F := Ideal) (φ₁ := .bf16) (φ₂ := .bf16) dot_S5000x64_S64x64_S5000x64_1_0_0_1_n_n none (shapeCast S5000x64 x0 shapeCasts_S5000x64_S5000x64) x3 (constant (F := Ideal) S5000x64 .f32 0x00000000#32) (ix2 p q)
        + FloatOps.matmul (F := Ideal) (φ₁ := .bf16) (φ₂ := .bf16) dot_S5000x64_S64x64_S5000x64_1_0_0_1_n_n none (mulf (F := Ideal) (φ := .f32) (shapeCast S5000x64 x1 shapeCasts_S5000x64_S5000x64) (broadcastTo S5000x64 (shapeCast S5000x1 x2 shapeCasts_S5000x1_S5000x1) broadcasts_S5000x1_S5000x64)) x4 (constant (F := Ideal) S5000x64 .f32 0x00000000#32) (ix2 p q))
        + broadcastTo S5000x64 (shapeCast S1x64 x5 shapeCasts_S1x64_S1x64) broadcasts_S1x64_S5000x64 (ix2 p q) = _
  rw [matmul_blk, matmul_blk, shapeCast_self, shapeCast_self, shapeCast_self, shapeCast_self, broadcastTo_row]
  refine congrArg (fun s => (_ + s) + _) (Finset.sum_congr rfl fun k _ => ?_)
  show (x1 (ix2 p k) * broadcastTo S5000x64 x2 broadcasts_S5000x1_S5000x64 (ix2 p k)) * x4 (ix2 k q) = _
  rw [broadcastTo_col]

/-! ## From a block to the whole layer -/

/-- When row `p` of the loaded blocks is node `r` of the whole arrays, the block's value at `(p, q)` is the
    layer's value at `(r, q)`. -/
theorem pre_block (x0 x1 : S5000x64.Idx → EReal) (x2 : S5000x1.Idx → EReal) (x3 x4 : S64x64.Idx → EReal) (x5 : S1x64.Idx → EReal)
    (h msum : (⟨2, ![100000, 64]⟩ : Shape).Idx → EReal) (dinv : (⟨2, ![100000, 1]⟩ : Shape).Idx → EReal)
    (p : Fin 5000) (q : Fin 64) (r : Fin 100000)
    (h0 : ∀ k : Fin 64, x0 (ix2 p k) = h (ix2 r k)) (h1 : ∀ k : Fin 64, x1 (ix2 p k) = msum (ix2 r k))
    (h2 : x2 (ix2 p (0 : Fin 1)) = dinv (ix2 r (0 : Fin 1))) :
    ((∑ k : Fin 64, x0 (ix2 p k) * x3 (ix2 k q)) + ∑ k : Fin 64, (x1 (ix2 p k) * x2 (ix2 p (0 : Fin 1))) * x4 (ix2 k q))
        + x5 (ix2 (0 : Fin 1) q)
      = Cert.Sage.pre h msum dinv x3 x4 x5 r q := by
  unfold Cert.Sage.pre
  simp only [h0, h1, h2]

end Cert.Sage.Body

end
-- ==== Proof.Region0.lean ====
/-
  Region 0 (layer 0) as ONE function of the arrays it finds.

  The grid has 20 points; point `t` loads rows 5000·t … 5000·t + 4999 of the feature array, of the neighbour sums
  and of the reciprocal-degree column, the two weight matrices and the bias row whole, and writes back rows
  5000·t … 5000·t + 4999 of the result. The 20 row blocks tile the 100000 rows, so after the region the result
  array holds the layer's function `Cert.Sage.layerRelu` of the arrays the region was entered with, whatever those are.
-/
import proofs.«166750_j24326694764904_2_alg».proof.Proof.Patched.KernelIdeal.Frame
import proofs.«166750_j24326694764904_2_alg».proof.Proof.Body
import proofs.«166750_j24326694764904_2_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Sage.Region0

open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-block windows and the result's window sit at block `t` of the
    row axis, the weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block as rows of its array -/

/-- Row `x 0` of the feature block at point `t` is row `5000·t + x 0` of the feature array. -/
theorem blk_h (c : Dev nD) (t : Fin cfg0.N) (x : S5000x64.Idx) (k : S100000x64.Idx)
    (hk0 : (k 0).val = 5000 * t.val + (x 0).val) (hk1 : (k 1).val = (x 1).val) :
    (iblk0 V c 0 t : Vec Ideal S5000x64 .f32) x = (V c main_arg0 : S100000x64.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 64 + 1 * (x 1).val = (k 1).val; rw [e1, hk1]; omega

/-- Row `x 0` of the neighbour-sum block at point `t` is row `5000·t + x 0` of the neighbour sums. -/
theorem blk_m (c : Dev nD) (t : Fin cfg0.N) (x : S5000x64.Idx) (k : S100000x64.Idx)
    (hk0 : (k 0).val = 5000 * t.val + (x 0).val) (hk1 : (k 1).val = (x 1).val) :
    (iblk0 V c 1 t : Vec Ideal S5000x64 .f32) x = (V c main_v18 : S100000x64.Idx → EReal) k := by
  obtain ⟨-, -, e0, e1, -⟩ := idx_facts t
  unfold iblk0
  rw [View.read_apply]
  show V c main_v18 _ = V c main_v18 _
  congr 1
  funext a
  apply Fin.ext
  match a with
  | ⟨0, _⟩ => show win0_1.index t 0 * 5000 + 1 * (x 0).val = (k 0).val; rw [e0, hk0]; omega
  | ⟨1, _⟩ => show win0_1.index t 1 * 64 + 1 * (x 1).val = (k 1).val; rw [e1, hk1]; omega

/-- Row `x 0` of the reciprocal-degree block at point `t` is row `5000·t + x 0` of the column. -/
theorem blk_d (c : Dev nD) (t : Fin cfg0.N) (x : S5000x1.Idx) (k : S100000x1.Idx)
    (hk0 : (k 0).val = 5000 * t.val + (x 0).val) (hk1 : (k 1).val = (x 1).val) :
    (iblk0 V c 2 t : Vec Ideal S5000x1 .f32) x = (V c main_v8 : S100000x1.Idx → EReal) k := by
  obtain ⟨-, -, -, -, e0, e1, -⟩ := idx_facts t
  unfold iblk0
  rw [View.read_apply]
  show V c main_v8 _ = V c main_v8 _
  congr 1
  funext a
  apply Fin.ext
  match a with
  | ⟨0, _⟩ => show win0_2.index t 0 * 5000 + 1 * (x 0).val = (k 0).val; rw [e0, hk0]; omega
  | ⟨1, _⟩ => show win0_2.index t 1 * 1 + 1 * (x 1).val = (k 1).val; rw [e1, hk1]; omega

/-- The self weights' block is the whole matrix at every point. -/
theorem blk_ws (c : Dev nD) (t : Fin cfg0.N) :
    (iblk0 V c 3 t : Vec Ideal S64x64 .f32) = (V c main_arg3 : S64x64.Idx → EReal) := by
  obtain ⟨-, -, -, -, -, -, e0, e1, -⟩ := idx_facts t
  funext x
  unfold iblk0
  rw [View.read_apply]
  show V c main_arg3 _ = V c main_arg3 _
  congr 1
  funext a
  apply Fin.ext
  match a with
  | ⟨0, _⟩ => show win0_3.index t 0 * 64 + 1 * (x 0).val = (x 0).val; rw [e0]; omega
  | ⟨1, _⟩ => show win0_3.index t 1 * 64 + 1 * (x 1).val = (x 1).val; rw [e1]; omega

/-- The neighbour weights' block is the whole matrix at every point. -/
theorem blk_wn (c : Dev nD) (t : Fin cfg0.N) :
    (iblk0 V c 4 t : Vec Ideal S64x64 .f32) = (V c main_arg4 : S64x64.Idx → EReal) := by
  obtain ⟨-, -, -, -, -, -, -, -, e0, e1, -⟩ := idx_facts t
  funext x
  unfold iblk0
  rw [View.read_apply]
  show V c main_arg4 _ = V c main_arg4 _
  congr 1
  funext a
  apply Fin.ext
  match a with
  | ⟨0, _⟩ => show win0_4.index t 0 * 64 + 1 * (x 0).val = (x 0).val; rw [e0]; omega
  | ⟨1, _⟩ => show win0_4.index t 1 * 64 + 1 * (x 1).val = (x 1).val; rw [e1]; omega

/-- The bias row's block is the whole row at every point. -/
theorem blk_b (c : Dev nD) (t : Fin cfg0.N) :
    (iblk0 V c 5 t : Vec Ideal S1x64 .f32) = (V c main_v19 : S1x64.Idx → EReal) := by
  obtain ⟨-, -, -, -, -, -, -, -, -, -, e0, e1, -⟩ := idx_facts t
  funext x
  unfold iblk0
  rw [View.read_apply]
  show V c main_v19 _ = V c main_v19 _
  congr 1
  funext a
  apply Fin.ext
  match a with
  | ⟨0, _⟩ => show win0_5.index t 0 * 1 + 1 * (x 0).val = (x 0).val; rw [e0]; omega
  | ⟨1, _⟩ => show win0_5.index t 1 * 64 + 1 * (x 1).val = (x 1).val; rw [e1]; omega

/-! ## What a point writes back, and the array after the region -/

/-- The layer's function of the arrays the region finds. -/
abbrev result (c : Dev nD) : S100000x64.Idx → EReal :=
  Cert.Sage.layerRelu (V c main_arg0) (V c main_v18) (V c main_v8) (V c main_arg3) (V c main_arg4) (V c main_v19)

/-- WHAT POINT `t` WRITES BACK is block `t` of the layer's function of the arrays as the region finds them. -/
theorem flushed_eq (c : Dev nD) (t : Fin cfg0.N) :
    (dat0 V c).flushed 6 t = ((cfg0.win 6).blk t).view.read (Elt Ideal) (result V c) := by
  obtain ⟨-, -, -, -, -, -, -, -, -, -, -, -, e0, e1⟩ := idx_facts t
  have hN : cfg0.N = 20 := N_0
  have ht : t.val < 20 := hN ▸ t.isLt
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have hp : p.val < 5000 := p.isLt
  have he : ((cfg0.win 6).blk t).view.emb (ix2 p q) = (ix2 (⟨5000 * t.val + p.val, by omega⟩ : Fin 100000) q : S100000x64.Idx) := by
    funext a
    apply Fin.ext
    match a with
    | ⟨0, _⟩ => show win0_6.index t 0 * 5000 + 1 * p.val = 5000 * t.val + p.val; rw [e0]; omega
    | ⟨1, _⟩ => show win0_6.index t 1 * 64 + 1 * q.val = q.val; rw [e1]; omega
  show k0_pay1 (F := Ideal) (iblk0 V c 0 t) (iblk0 V c 1 t) (iblk0 V c 2 t) (iblk0 V c 3 t) (iblk0 V c 4 t) (iblk0 V c 5 t) (ix2 p q)
    = result V c (((cfg0.win 6).blk t).view.emb (ix2 p q))
  rw [he]
  refine (Cert.Sage.Body.pay0_apply (iblk0 V c 0 t) (iblk0 V c 1 t) (iblk0 V c 2 t) (iblk0 V c 3 t) (iblk0 V c 4 t) (iblk0 V c 5 t) p q).trans ?_
  rw [blk_ws V c t, blk_wn V c t, blk_b V c t]
  exact congrArg (fun s => max s 0) (Cert.Sage.Body.pre_block (iblk0 V c 0 t) (iblk0 V c 1 t) (iblk0 V c 2 t) (V c main_arg3) (V c main_arg4) (V c main_v19)
    (V c main_arg0) (V c main_v18) (V c main_v8) p q ⟨5000 * t.val + p.val, by omega⟩
    (fun k => blk_h V c t (ix2 p k) (ix2 ⟨5000 * t.val + p.val, by omega⟩ k) rfl rfl)
    (fun k => blk_m V c t (ix2 p k) (ix2 ⟨5000 * t.val + p.val, by omega⟩ k) rfl rfl)
    (blk_d V c t (ix2 p (0 : Fin 1)) (ix2 ⟨5000 * t.val + p.val, by omega⟩ (0 : Fin 1)) rfl rfl))

/-- An index of the result array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v20).slice (win0_6.rect t)).set ↔ _
  rw [View.set_slice_whole, Rect.mem_set_unit]
  exact Iff.rfl

/-- Every row of the result lies in the block of the point `row / 5000`. -/
theorem cover (i : S100000x64.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 64 := (i 1).isLt
  let t : Fin cfg0.N := ⟨(i 0).val / 5000, by rw [hN]; omega⟩
  obtain ⟨-, -, -, -, -, -, -, -, -, -, -, -, e0, e1⟩ := idx_facts t
  have htv : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [e0, htv]; omega
  | ⟨1, _⟩ => show win0_6.index t (1 : Fin 2) * 64 ≤ (i 1).val ∧ (i 1).val < win0_6.index t (1 : Fin 2) * 64 + 64; rw [e1]; omega

/-- THE ARRAY after the region: the layer's function of the arrays the region was entered with. -/
theorem final (c : Dev nD) : (dat0 V c).arrAt 6 cfg0.N = result V c :=
  (dat0 V c).arrAt_eq_of_cover 6 (result V c) (fun t _ => flushed_eq V c t) cover

end Cert.Sage.Region0

end
-- ==== Proof.Region1.lean ====
/-
  Region 1 (layer 1) as ONE function of the arrays it finds.

  The grid has 20 points; point `t` loads rows 5000·t … 5000·t + 4999 of the feature array, of the neighbour sums
  and of the reciprocal-degree column, the two weight matrices and the bias row whole, and writes back rows
  5000·t … 5000·t + 4999 of the result. The 20 row blocks tile the 100000 rows, so after the region the result
  array holds the layer's function `Cert.Sage.layerRelu` of the arrays the region was entered with, whatever those are.
-/
import proofs.«166750_j24326694764904_2_alg».proof.Proof.Patched.KernelIdeal.Frame
import proofs.«166750_j24326694764904_2_alg».proof.Proof.Body
import proofs.«166750_j24326694764904_2_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Sage.Region1

open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-block windows and the result's window sit at block `t` of the
    row axis, the weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each input block as rows of its array -/

/-- Row `x 0` of the feature block at point `t` is row `5000·t + x 0` of the feature array. -/
theorem blk_h (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .bf16) x = (V c main_v20 : S100000x64.Idx → EReal) k := by
  obtain ⟨e0, e1, -⟩ := idx_facts t
  unfold iblk1
  rw [View.read_apply]
  show V c main_v20 _ = V c main_v20 _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- Row `x 0` of the neighbour-sum block at point `t` is row `5000·t + x 0` of the neighbour sums. -/
theorem blk_m (c : Dev nD) (t : Fin cfg1.N) (x : S5000x64.Idx) (k : S100000x64.Idx)
    (hk0 : (k 0).val = 5000 * t.val + (x 0).val) (hk1 : (k 1).val = (x 1).val) :
    (iblk1 V c 1 t : Vec Ideal S5000x64 .f32) x = (V c main_v31 : S100000x64.Idx → EReal) k := by
  obtain ⟨-, -, e0, e1, -⟩ := idx_facts t
  unfold iblk1
  rw [View.read_apply]
  show V c main_v31 _ = V c main_v31 _
  congr 1
  funext a
  apply Fin.ext
  match a with
  | ⟨0, _⟩ => show win1_1.index t 0 * 5000 + 1 * (x 0).val = (k 0).val; rw [e0, hk0]; omega
  | ⟨1, _⟩ => show win1_1.index t 1 * 64 + 1 * (x 1).val = (k 1).val; rw [e1, hk1]; omega

/-- Row `x 0` of the reciprocal-degree block at point `t` is row `5000·t + x 0` of the column. -/
theorem blk_d (c : Dev nD) (t : Fin cfg1.N) (x : S5000x1.Idx) (k : S100000x1.Idx)
    (hk0 : (k 0).val = 5000 * t.val + (x 0).val) (hk1 : (k 1).val = (x 1).val) :
    (iblk1 V c 2 t : Vec Ideal S5000x1 .f32) x = (V c main_v8 : S100000x1.Idx → EReal) k := by
  obtain ⟨-, -, -, -, e0, e1, -⟩ := idx_facts t
  unfold iblk1
  rw [View.read_apply]
  show V c main_v8 _ = V c main_v8 _
  congr 1
  funext a
  apply Fin.ext
  match a with
  | ⟨0, _⟩ => show win1_2.index t 0 * 5000 + 1 * (x 0).val = (k 0).val; rw [e0, hk0]; omega
  | ⟨1, _⟩ => show win1_2.index t 1 * 1 + 1 * (x 1).val = (k 1).val; rw [e1, hk1]; omega

/-- The self weights' block is the whole matrix at every point. -/
theorem blk_ws (c : Dev nD) (t : Fin cfg1.N) :
    (iblk1 V c 3 t : Vec Ideal S64x64 .f32) = (V c main_arg6 : S64x64.Idx → EReal) := by
  obtain ⟨-, -, -, -, -, -, e0, e1, -⟩ := idx_facts t
  funext x
  unfold iblk1
  rw [View.read_apply]
  show V c main_arg6 _ = V c main_arg6 _
  congr 1
  funext a
  apply Fin.ext
  match a with
  | ⟨0, _⟩ => show win1_3.index t 0 * 64 + 1 * (x 0).val = (x 0).val; rw [e0]; omega
  | ⟨1, _⟩ => show win1_3.index t 1 * 64 + 1 * (x 1).val = (x 1).val; rw [e1]; omega

/-- The neighbour weights' block is the whole matrix at every point. -/
theorem blk_wn (c : Dev nD) (t : Fin cfg1.N) :
    (iblk1 V c 4 t : Vec Ideal S64x64 .f32) = (V c main_arg7 : S64x64.Idx → EReal) := by
  obtain ⟨-, -, -, -, -, -, -, -, e0, e1, -⟩ := idx_facts t
  funext x
  unfold iblk1
  rw [View.read_apply]
  show V c main_arg7 _ = V c main_arg7 _
  congr 1
  funext a
  apply Fin.ext
  match a with
  | ⟨0, _⟩ => show win1_4.index t 0 * 64 + 1 * (x 0).val = (x 0).val; rw [e0]; omega
  | ⟨1, _⟩ => show win1_4.index t 1 * 64 + 1 * (x 1).val = (x 1).val; rw [e1]; omega

/-- The bias row's block is the whole row at every point. -/
theorem blk_b (c : Dev nD) (t : Fin cfg1.N) :
    (iblk1 V c 5 t : Vec Ideal S1x64 .f32) = (V c main_v32 : S1x64.Idx → EReal) := by
  obtain ⟨-, -, -, -, -, -, -, -, -, -, e0, e1, -⟩ := idx_facts t
  funext x
  unfold iblk1
  rw [View.read_apply]
  show V c main_v32 _ = V c main_v32 _
  congr 1
  funext a
  apply Fin.ext
  match a with
  | ⟨0, _⟩ => show win1_5.index t 0 * 1 + 1 * (x 0).val = (x 0).val; rw [e0]; omega
  | ⟨1, _⟩ => show win1_5.index t 1 * 64 + 1 * (x 1).val = (x 1).val; rw [e1]; omega

/-! ## What a point writes back, and the array after the region -/

/-- The layer's function of the arrays the region finds. -/
abbrev result (c : Dev nD) : S100000x64.Idx → EReal :=
  Cert.Sage.layerRelu (V c main_v20) (V c main_v31) (V c main_v8) (V c main_arg6) (V c main_arg7) (V c main_v32)

/-- WHAT POINT `t` WRITES BACK is block `t` of the layer's function of the arrays as the region finds them. -/
theorem flushed_eq (c : Dev nD) (t : Fin cfg1.N) :
    (dat1 V c).flushed 6 t = ((cfg1.win 6).blk t).view.read (Elt Ideal) (result V c) := by
  obtain ⟨-, -, -, -, -, -, -, -, -, -, -, -, e0, e1⟩ := idx_facts t
  have hN : cfg1.N = 20 := N_1
  have ht : t.val < 20 := hN ▸ t.isLt
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have hp : p.val < 5000 := p.isLt
  have he : ((cfg1.win 6).blk t).view.emb (ix2 p q) = (ix2 (⟨5000 * t.val + p.val, by omega⟩ : Fin 100000) q : S100000x64.Idx) := by
    funext a
    apply Fin.ext
    match a with
    | ⟨0, _⟩ => show win1_6.index t 0 * 5000 + 1 * p.val = 5000 * t.val + p.val; rw [e0]; omega
    | ⟨1, _⟩ => show win1_6.index t 1 * 64 + 1 * q.val = q.val; rw [e1]; omega
  show k1_pay1 (F := Ideal) (iblk1 V c 0 t) (iblk1 V c 1 t) (iblk1 V c 2 t) (iblk1 V c 3 t) (iblk1 V c 4 t) (iblk1 V c 5 t) (ix2 p q)
    = result V c (((cfg1.win 6).blk t).view.emb (ix2 p q))
  rw [he]
  refine (Cert.Sage.Body.pay1_apply (iblk1 V c 0 t) (iblk1 V c 1 t) (iblk1 V c 2 t) (iblk1 V c 3 t) (iblk1 V c 4 t) (iblk1 V c 5 t) p q).trans ?_
  rw [blk_ws V c t, blk_wn V c t, blk_b V c t]
  exact congrArg (fun s => max s 0) (Cert.Sage.Body.pre_block (iblk1 V c 0 t) (iblk1 V c 1 t) (iblk1 V c 2 t) (V c main_arg6) (V c main_arg7) (V c main_v32)
    (V c main_v20) (V c main_v31) (V c main_v8) p q ⟨5000 * t.val + p.val, by omega⟩
    (fun k => blk_h V c t (ix2 p k) (ix2 ⟨5000 * t.val + p.val, by omega⟩ k) rfl rfl)
    (fun k => blk_m V c t (ix2 p k) (ix2 ⟨5000 * t.val + p.val, by omega⟩ k) rfl rfl)
    (blk_d V c t (ix2 p (0 : Fin 1)) (ix2 ⟨5000 * t.val + p.val, by omega⟩ (0 : Fin 1)) rfl rfl))

/-- An index of the result array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v33).slice (win1_6.rect t)).set ↔ _
  rw [View.set_slice_whole, Rect.mem_set_unit]
  exact Iff.rfl

/-- Every row of the result lies in the block of the point `row / 5000`. -/
theorem cover (i : S100000x64.Idx) :
    ∃ t : Fin cfg1.N, (cfg1.win 6).flush t = true ∧ i ∈ ((cfg1.win 6).blk t).view.set := by
  have hN : cfg1.N = 20 := N_1
  have hi0 : (i 0).val < 100000 := (i 0).isLt
  have hi1 : (i 1).val < 64 := (i 1).isLt
  let t : Fin cfg1.N := ⟨(i 0).val / 5000, by rw [hN]; omega⟩
  obtain ⟨-, -, -, -, -, -, -, -, -, -, -, -, e0, e1⟩ := idx_facts t
  have htv : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; rw [e0, htv]; omega
  | ⟨1, _⟩ => show win1_6.index t (1 : Fin 2) * 64 ≤ (i 1).val ∧ (i 1).val < win1_6.index t (1 : Fin 2) * 64 + 64; rw [e1]; omega

/-- THE ARRAY after the region: the layer's function of the arrays the region was entered with. -/
theorem final (c : Dev nD) : (dat1 V c).arrAt 6 cfg1.N = result V c :=
  (dat1 V c).arrAt_eq_of_cover 6 (result V c) (fun t _ => flushed_eq V c t) cover

end Cert.Sage.Region1

end
-- ==== Proof.Region2.lean ====
/-
  Region 2 (layer 2) as ONE function of the arrays it finds.

  The grid has 20 points; point `t` loads rows 5000·t … 5000·t + 4999 of the feature array, of the neighbour sums
  and of the reciprocal-degree column, the two weight matrices and the bias row whole, and writes back rows
  5000·t … 5000·t + 4999 of the result. The 20 row blocks tile the 100000 rows, so after the region the result
  array holds the layer's function `Cert.Sage.layerLin` of the arrays the region was entered with, whatever those are.
-/
import proofs.«166750_j24326694764904_2_alg».proof.Proof.Patched.KernelIdeal.Frame
import proofs.«166750_j24326694764904_2_alg».proof.Proof.Body
import proofs.«166750_j24326694764904_2_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Sage.Region2

open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-block windows and the result's window sit at block `t` of the
    row axis, the weights and the bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## Each input block as rows of its array -/

/-- Row `x 0` of the feature block at point `t` is row `5000·t + x 0` of the feature array. -/
theorem blk_h (c : Dev nD) (t : Fin cfg2.N) (x : S5000x64.Idx) (k : S100000x64.Idx)
    (hk0 : (k 0).val = 5000 * t.val + (x 0).val) (hk1 : (k 1).val = (x 1).val) :
    (iblk2 V c 0 t : Vec Ideal S5000x64 .bf16) x = (V c main_v33 : S100000x64.Idx → EReal) k := by
  obtain ⟨e0, e1, -⟩ := idx_facts t
  unfold iblk2
  rw [View.read_apply]
  show V c main_v33 _ = V c main_v33 _
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- Row `x 0` of the neighbour-sum block at point `t` is row `5000·t + x 0` of the neighbour sums. -/
theorem blk_m (c : Dev nD) (t : Fin cfg2.N) (x : S5000x64.Idx) (k : S100000x64.Idx)
    (hk0 : (k 0).val = 5000 * t.val + (x 0).val) (hk1 : (k 1).val = (x 1).val) :
    (iblk2 V c 1 t : Vec Ideal S5000x64 .f32) x = (V c main_v44 : S100000x64.Idx → EReal) k := by
  obtain ⟨-, -, e0, e1, -⟩ := idx_facts t
  unfold iblk2
  rw [View.read_apply]
  show V c main_v44 _ = V c main_v44 _
  congr 1
  funext a
  apply Fin.ext
  match a with
  | ⟨0, _⟩ => show win2_1.index t 0 * 5000 + 1 * (x 0).val = (k 0).val; rw [e0, hk0]; omega
  | ⟨1, _⟩ => show win2_1.index t 1 * 64 + 1 * (x 1).val = (k 1).val; rw [e1, hk1]; omega

/-- Row `x 0` of the reciprocal-degree block at point `t` is row `5000·t + x 0` of the column. -/
theorem blk_d (c : Dev nD) (t : Fin cfg2.N) (x : S5000x1.Idx) (k : S100000x1.Idx)
    (hk0 : (k 0).val = 5000 * t.val + (x 0).val) (hk1 : (k 1).val = (x 1).val) :
    (iblk2 V c 2 t : Vec Ideal S5000x1 .f32) x = (V c main_v8 : S100000x1.Idx → EReal) k := by
  obtain ⟨-, -, -, -, e0, e1, -⟩ := idx_facts t
  unfold iblk2
  rw [View.read_apply]
  show V c main_v8 _ = V c main_v8 _
  congr 1
  funext a
  apply Fin.ext
  match a with
  | ⟨0, _⟩ => show win2_2.index t 0 * 5000 + 1 * (x 0).val = (k 0).val; rw [e0, hk0]; omega
  | ⟨1, _⟩ => show win2_2.index t 1 * 1 + 1 * (x 1).val = (k 1).val; rw [e1, hk1]; omega

/-- The self weights' block is the whole matrix at every point. -/
theorem blk_ws (c : Dev nD) (t : Fin cfg2.N) :
    (iblk2 V c 3 t : Vec Ideal S64x64 .f32) = (V c main_arg9 : S64x64.Idx → EReal) := by
  obtain ⟨-, -, -, -, -, -, e0, e1, -⟩ := idx_facts t
  funext x
  unfold iblk2
  rw [View.read_apply]
  show V c main_arg9 _ = V c main_arg9 _
  congr 1
  funext a
  apply Fin.ext
  match a with
  | ⟨0, _⟩ => show win2_3.index t 0 * 64 + 1 * (x 0).val = (x 0).val; rw [e0]; omega
  | ⟨1, _⟩ => show win2_3.index t 1 * 64 + 1 * (x 1).val = (x 1).val; rw [e1]; omega

/-- The neighbour weights' block is the whole matrix at every point. -/
theorem blk_wn (c : Dev nD) (t : Fin cfg2.N) :
    (iblk2 V c 4 t : Vec Ideal S64x64 .f32) = (V c main_arg10 : S64x64.Idx → EReal) := by
  obtain ⟨-, -, -, -, -, -, -, -, e0, e1, -⟩ := idx_facts t
  funext x
  unfold iblk2
  rw [View.read_apply]
  show V c main_arg10 _ = V c main_arg10 _
  congr 1
  funext a
  apply Fin.ext
  match a with
  | ⟨0, _⟩ => show win2_4.index t 0 * 64 + 1 * (x 0).val = (x 0).val; rw [e0]; omega
  | ⟨1, _⟩ => show win2_4.index t 1 * 64 + 1 * (x 1).val = (x 1).val; rw [e1]; omega

/-- The bias row's block is the whole row at every point. -/
theorem blk_b (c : Dev nD) (t : Fin cfg2.N) :
    (iblk2 V c 5 t : Vec Ideal S1x64 .f32) = (V c main_v45 : S1x64.Idx → EReal) := by
  obtain ⟨-, -, -, -, -, -, -, -, -, -, e0, e1, -⟩ := idx_facts t
  funext x
  unfold iblk2
  rw [View.read_apply]
  show V c main_v45 _ = V c main_v45 _
  congr 1
  funext a
  apply Fin.ext
  match a with
  | ⟨0, _⟩ => show win2_5.index t 0 * 1 + 1 * (x 0).val = (x 0).val; rw [e0]; omega
  | ⟨1, _⟩ => show win2_5.index t 1 * 64 + 1 * (x 1).val = (x 1).val; rw [e1]; omega

/-! ## What a point writes back, and the array after the region -/

/-- The layer's function of the arrays the region finds. -/
abbrev result (c : Dev nD) : S100000x64.Idx → EReal :=
  Cert.Sage.layerLin (V c main_v33) (V c main_v44) (V c main_v8) (V c main_arg9) (V c main_arg10) (V c main_v45)

/-- WHAT POINT `t` WRITES BACK is block `t` of the layer's function of the arrays as the region finds them. -/
theorem flushed_eq (c : Dev nD) (t : Fin cfg2.N) :
    (dat2 V c).flushed 6 t = ((cfg2.win 6).blk t).view.read (Elt Ideal) (result V c) := by
  obtain ⟨-, -, -, -, -, -, -, -, -, -, -, -, e0, e1⟩ := idx_facts t
  have hN : cfg2.N = 20 := N_2
  have ht : t.val < 20 := hN ▸ t.isLt
  show (cfg2.win 6).cut (grid2.coords t) ((dat2 V c).after 6 t) = _
  rw [after2_6]
  unfold out2_6
  rw [View.canon_unit_zero hz]
  simp only [View.ld_unit_zero (S := S5000x64) hz, View.ld_unit_zero (S := S5000x1) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have hp : p.val < 5000 := p.isLt
  have he : ((cfg2.win 6).blk t).view.emb (ix2 p q) = (ix2 (⟨5000 * t.val + p.val, by omega⟩ : Fin 100000) q : S100000x64.Idx) := by
    funext a
    apply Fin.ext
    match a with
    | ⟨0, _⟩ => show win2_6.index t 0 * 5000 + 1 * p.val = 5000 * t.val + p.val; rw [e0]; omega
    | ⟨1, _⟩ => show win2_6.index t 1 * 64 + 1 * q.val = q.val; rw [e1]; omega
  show k2_pay1 (F := Ideal) (iblk2 V c 0 t) (iblk2 V c 1 t) (iblk2 V c 2 t) (iblk2 V c 3 t) (iblk2 V c 4 t) (iblk2 V c 5 t) (ix2 p q)
    = result V c (((cfg2.win 6).blk t).view.emb (ix2 p q))
  rw [he]
  refine (Cert.Sage.Body.pay2_apply (iblk2 V c 0 t) (iblk2 V c 1 t) (iblk2 V c 2 t) (iblk2 V c 3 t) (iblk2 V c 4 t) (iblk2 V c 5 t) p q).trans ?_
  rw [blk_ws V c t, blk_wn V c t, blk_b V c t]
  exact (Cert.Sage.Body.pre_block (iblk2 V c 0 t) (iblk2 V c 1 t) (iblk2 V c 2 t) (V c main_arg9) (V c main_arg10) (V c main_v45)
    (V c main_v33) (V c main_v44) (V c main_v8) p q ⟨5000 * t.val + p.val, by omega⟩
    (fun k => blk_h V c t (ix2 p k) (ix2 ⟨5000 * t.val + p.val, by omega⟩ k) rfl rfl)
    (fun k => blk_m V c t (ix2 p k) (ix2 ⟨5000 * t.val + p.val, by omega⟩ k) rfl rfl)
    (blk_d V c t (ix2 p (0 : Fin 1)) (ix2 ⟨5000 * t.val + p.val, by omega⟩ (0 : Fin 1)) rfl rfl))

/-- An index of the result array is in point `t`'s block iff each coordinate is in the block's range on its axis. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v46).slice (win2_6.rect t)).set ↔ _
  rw [View.set_slice_whole, Rect.mem_set_unit]
  exact Iff.rfl

/-- Every row of the result lies in the block of the point `row / 5000`. -/
theorem cover (i : S100000x64.Idx) :
    ∃ t : Fin cfg2.N, (cfg2.win 6).flush t = true ∧ i ∈ ((cfg2.win 6).blk t).view.set := by
  have hN : cfg2.N = 20 := N_2
  have hi0 : (i 0).val < 100000 := (i 0).isLt
  have hi1 : (i 1).val < 64 := (i 1).isLt
  let t : Fin cfg2.N := ⟨(i 0).val / 5000, by rw [hN]; omega⟩
  obtain ⟨-, -, -, -, -, -, -, -, -, -, -, -, e0, e1⟩ := idx_facts t
  have htv : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; rw [e0, htv]; omega
  | ⟨1, _⟩ => show win2_6.index t (1 : Fin 2) * 64 ≤ (i 1).val ∧ (i 1).val < win2_6.index t (1 : Fin 2) * 64 + 64; rw [e1]; omega

/-- THE ARRAY after the region: the layer's function of the arrays the region was entered with. -/
theorem final (c : Dev nD) : (dat2 V c).arrAt 6 cfg2.N = result V c :=
  (dat2 V c).arrAt_eq_of_cover 6 (result V c) (fun t _ => flushed_eq V c t) cover

end Cert.Sage.Region2

end
-- ==== Proof.Host.lean ====
/-
  The host side of the kernel program, read.

  Between the regions the program runs plain host operations. Three stretches: before layer 0 the in-degrees
  (a scatter-add of ones into the destination nodes), their clamp at one and reciprocal as a column, the neighbour sums of
  the input features (the rows gathered at the source nodes, negative indices wrapped, scatter-added into the destination
  nodes) and the bias as a row; before layers 1 and 2 the neighbour sums of the previous layer's result and the bias row.
  Each is named here as one function of what it reads (`dinv`, `agg`, `biasRow`) and each stretch's results are read off
  the fold of its operations over ANY contents `B` of the buffers at its start; a buffer the stretch does not write keeps
  its contents. On the extended reals the widening of the gathered rows from the two-byte format is the identity, so the
  neighbour sums of layers 1 and 2 are the same function `agg` as layer 0's.
-/
import proofs.«166750_j24326694764904_2_alg».proof.Proof.Patched.KernelIdeal.Launch
import Idealize.ShloMosaic.Lib.StableHlo.Run
import Idealize.ShloMosaic.PureOps.Ideal

set_option maxRecDepth 16384

noncomputable section

namespace Cert.Sage.Host

open Idealize.ShloMosaic Idealize.ShloMosaic.TcCoe Idealize.SL.Sem Idealize.ShloMosaic.StableHlo
open Cert.KernelIdeal Cert.KernelIdeal.Gen Cert.KernelIdeal.GenP

variable {F : FTy → Type} [FloatOps F]

/-- The reciprocal of the clamped in-degree, as a column: 1 / max(#{edges into the node}, 1). -/
def dinv (dst : (⟨S1600000, .i32⟩ : BufTy).Contents (Elt F)) : (⟨S100000x1, .f32⟩ : BufTy).Contents (Elt F) :=
  (broadcastInDim S100000x1 ![0] bcast_S100000_S100000x1_0 : (⟨S100000, .f32⟩ : BufTy).Contents (Elt F) → (⟨S100000x1, .f32⟩ : BufTy).Contents (Elt F))
    ((Host.divf : (⟨S100000, .f32⟩ : BufTy).Contents (Elt F) → (⟨S100000, .f32⟩ : BufTy).Contents (Elt F) → (⟨S100000, .f32⟩ : BufTy).Contents (Elt F))
      ((broadcastInDim S100000 ![] bcast_S_S100000 : (⟨S_, .f32⟩ : BufTy).Contents (Elt F) → (⟨S100000, .f32⟩ : BufTy).Contents (Elt F)) (constant S_ .f32 0x3F800000#32))
      ((maximumf : (⟨S100000, .f32⟩ : BufTy).Contents (Elt F) → (⟨S100000, .f32⟩ : BufTy).Contents (Elt F) → (⟨S100000, .f32⟩ : BufTy).Contents (Elt F))
        (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F))
          ((broadcastInDim S100000 ![] bcast_S_S100000 : (⟨S_, .f32⟩ : BufTy).Contents (Elt F) → (⟨S100000, .f32⟩ : BufTy).Contents (Elt F)) (constant S_ .f32 0x00000000#32))
          ((broadcastInDim S1600000x1 ![0] bcast_S1600000_S1600000x1_0 : (⟨S1600000, .i32⟩ : BufTy).Contents (Elt F) → (⟨S1600000x1, .i32⟩ : BufTy).Contents (Elt F)) dst)
          ((broadcastInDim S1600000 ![] bcast_S_S1600000 : (⟨S_, .f32⟩ : BufTy).Contents (Elt F) → (⟨S1600000, .f32⟩ : BufTy).Contents (Elt F)) (constant S_ .f32 0x3F800000#32)))
        ((broadcastInDim S100000 ![] bcast_S_S100000 : (⟨S_, .f32⟩ : BufTy).Contents (Elt F) → (⟨S100000, .f32⟩ : BufTy).Contents (Elt F)) (constant S_ .f32 0x3F800000#32))))

/-- The neighbour sums of a feature array: row `src e` (negative indices wrapped by 100000) added into row `dst e`,
    over all edges `e`, from zero. -/
def agg (y : (⟨S100000x64, .f32⟩ : BufTy).Contents (Elt F)) (src dst : (⟨S1600000, .i32⟩ : BufTy).Contents (Elt F)) :
    (⟨S100000x64, .f32⟩ : BufTy).Contents (Elt F) :=
  ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
    ((broadcastInDim S100000x64 ![] bcast_S_S100000x64 : (⟨S_, .f32⟩ : BufTy).Contents (Elt F) → (⟨S100000x64, .f32⟩ : BufTy).Contents (Elt F)) (constant S_ .f32 0x00000000#32))
    ((broadcastInDim S1600000x1 ![0] bcast_S1600000_S1600000x1_0 : (⟨S1600000, .i32⟩ : BufTy).Contents (Elt F) → (⟨S1600000x1, .i32⟩ : BufTy).Contents (Elt F)) dst)
    (((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) y
      ((broadcastInDim S1600000x1 ![0] bcast_S1600000_S1600000x1_0 : (⟨S1600000, .i32⟩ : BufTy).Contents (Elt F) → (⟨S1600000x1, .i32⟩ : BufTy).Contents (Elt F))
        ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
          ((cmpi .slt : (⟨S1600000, .i32⟩ : BufTy).Contents (Elt F) → (⟨S1600000, .i32⟩ : BufTy).Contents (Elt F) → (⟨S1600000, .i1⟩ : BufTy).Contents (Elt F)) src
            ((broadcastInDim S1600000 ![] bcast_S_S1600000 : (⟨S_, .i32⟩ : BufTy).Contents (Elt F) → (⟨S1600000, .i32⟩ : BufTy).Contents (Elt F)) (constantI S_ 32 0#32)))
          ((addi : (⟨S1600000, .i32⟩ : BufTy).Contents (Elt F) → (⟨S1600000, .i32⟩ : BufTy).Contents (Elt F) → (⟨S1600000, .i32⟩ : BufTy).Contents (Elt F)) src
            ((broadcastInDim S1600000 ![] bcast_S_S1600000 : (⟨S_, .i32⟩ : BufTy).Contents (Elt F) → (⟨S1600000, .i32⟩ : BufTy).Contents (Elt F)) (constantI S_ 32 100000#32)))
          src)))

/-- The same neighbour sums of an array held in the two-byte format: the gathered rows are widened before they are added. -/
def agg16 (y : (⟨S100000x64, .bf16⟩ : BufTy).Contents (Elt F)) (src dst : (⟨S1600000, .i32⟩ : BufTy).Contents (Elt F)) :
    (⟨S100000x64, .f32⟩ : BufTy).Contents (Elt F) :=
  ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
    ((broadcastInDim S100000x64 ![] bcast_S_S100000x64 : (⟨S_, .f32⟩ : BufTy).Contents (Elt F) → (⟨S100000x64, .f32⟩ : BufTy).Contents (Elt F)) (constant S_ .f32 0x00000000#32))
    ((broadcastInDim S1600000x1 ![0] bcast_S1600000_S1600000x1_0 : (⟨S1600000, .i32⟩ : BufTy).Contents (Elt F) → (⟨S1600000x1, .i32⟩ : BufTy).Contents (Elt F)) dst)
    (((extf .f32 · bitsLt_bf16_f32) : (⟨S1600000x64, .bf16⟩ : BufTy).Contents (Elt F) → (⟨S1600000x64, .f32⟩ : BufTy).Contents (Elt F))
      (((fun x i => Host.gather gather_S100000x64_S1600000x1_S1600000x64_1_0_n_n_0_1_164 x i) : (⟨S100000x64, .bf16⟩ : BufTy).Contents (Elt F) → (⟨S1600000x1, .i32⟩ : BufTy).Contents (Elt F) → (⟨S1600000x64, .bf16⟩ : BufTy).Contents (Elt F)) y
        ((broadcastInDim S1600000x1 ![0] bcast_S1600000_S1600000x1_0 : (⟨S1600000, .i32⟩ : BufTy).Contents (Elt F) → (⟨S1600000x1, .i32⟩ : BufTy).Contents (Elt F))
          ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
            ((cmpi .slt : (⟨S1600000, .i32⟩ : BufTy).Contents (Elt F) → (⟨S1600000, .i32⟩ : BufTy).Contents (Elt F) → (⟨S1600000, .i1⟩ : BufTy).Contents (Elt F)) src
              ((broadcastInDim S1600000 ![] bcast_S_S1600000 : (⟨S_, .i32⟩ : BufTy).Contents (Elt F) → (⟨S1600000, .i32⟩ : BufTy).Contents (Elt F)) (constantI S_ 32 0#32)))
            ((addi : (⟨S1600000, .i32⟩ : BufTy).Contents (Elt F) → (⟨S1600000, .i32⟩ : BufTy).Contents (Elt F) → (⟨S1600000, .i32⟩ : BufTy).Contents (Elt F)) src
              ((broadcastInDim S1600000 ![] bcast_S_S1600000 : (⟨S_, .i32⟩ : BufTy).Contents (Elt F) → (⟨S1600000, .i32⟩ : BufTy).Contents (Elt F)) (constantI S_ 32 100000#32)))
            src))))

/-- On the extended reals widening is the identity: the two neighbour sums are one function. -/
theorem agg16_eq (y : (⟨S100000x64, .bf16⟩ : BufTy).Contents (Elt Ideal)) (src dst : (⟨S1600000, .i32⟩ : BufTy).Contents (Elt Ideal)) :
    agg16 (F := Ideal) y src dst = agg (F := Ideal) y src dst := rfl

/-- The bias vector as one row. -/
def biasRow (b : (⟨S64, .f32⟩ : BufTy).Contents (Elt F)) : (⟨S1x64, .f32⟩ : BufTy).Contents (Elt F) :=
  fun i => shapeCast S1x64 b shapeCasts_S64_S1x64 i

/-! ## The first stretch (before layer 0) -/

set_option maxHeartbeats 4000000 in
theorem s0_v18 (B : Valuation τ sig (Elt F)) :
    StableHlo.after hostOps0 B (Proc.devRef .tc main_v18)
      = agg (B (Proc.devRef .tc main_arg0)) (B (Proc.devRef .tc main_arg1)) (B (Proc.devRef .tc main_arg2)) := by
  after_results <;> rfl

theorem s0_v8 (B : Valuation τ sig (Elt F)) :
    StableHlo.after hostOps0 B (Proc.devRef .tc main_v8) = dinv (B (Proc.devRef .tc main_arg2)) := by
  after_results <;> rfl

theorem s0_v19 (B : Valuation τ sig (Elt F)) :
    StableHlo.after hostOps0 B (Proc.devRef .tc main_v19) = biasRow (B (Proc.devRef .tc main_arg5)) := by
  after_results <;> rfl

theorem s0_keep_arg0 (B : Valuation τ sig (Elt F)) :
    StableHlo.after hostOps0 B (Proc.devRef .tc main_arg0) = B (Proc.devRef .tc main_arg0) := by
  after_results <;> rfl

theorem s0_keep_arg1 (B : Valuation τ sig (Elt F)) :
    StableHlo.after hostOps0 B (Proc.devRef .tc main_arg1) = B (Proc.devRef .tc main_arg1) := by
  after_results <;> rfl

theorem s0_keep_arg2 (B : Valuation τ sig (Elt F)) :
    StableHlo.after hostOps0 B (Proc.devRef .tc main_arg2) = B (Proc.devRef .tc main_arg2) := by
  after_results <;> rfl

theorem s0_keep_arg3 (B : Valuation τ sig (Elt F)) :
    StableHlo.after hostOps0 B (Proc.devRef .tc main_arg3) = B (Proc.devRef .tc main_arg3) := by
  after_results <;> rfl

theorem s0_keep_arg4 (B : Valuation τ sig (Elt F)) :
    StableHlo.after hostOps0 B (Proc.devRef .tc main_arg4) = B (Proc.devRef .tc main_arg4) := by
  after_results <;> rfl

theorem s0_keep_arg6 (B : Valuation τ sig (Elt F)) :
    StableHlo.after hostOps0 B (Proc.devRef .tc main_arg6) = B (Proc.devRef .tc main_arg6) := by
  after_results <;> rfl

theorem s0_keep_arg7 (B : Valuation τ sig (Elt F)) :
    StableHlo.after hostOps0 B (Proc.devRef .tc main_arg7) = B (Proc.devRef .tc main_arg7) := by
  after_results <;> rfl

theorem s0_keep_arg8 (B : Valuation τ sig (Elt F)) :
    StableHlo.after hostOps0 B (Proc.devRef .tc main_arg8) = B (Proc.devRef .tc main_arg8) := by
  after_results <;> rfl

theorem s0_keep_arg9 (B : Valuation τ sig (Elt F)) :
    StableHlo.after hostOps0 B (Proc.devRef .tc main_arg9) = B (Proc.devRef .tc main_arg9) := by
  after_results <;> rfl

theorem s0_keep_arg10 (B : Valuation τ sig (Elt F)) :
    StableHlo.after hostOps0 B (Proc.devRef .tc main_arg10) = B (Proc.devRef .tc main_arg10) := by
  after_results <;> rfl

theorem s0_keep_arg11 (B : Valuation τ sig (Elt F)) :
    StableHlo.after hostOps0 B (Proc.devRef .tc main_arg11) = B (Proc.devRef .tc main_arg11) := by
  after_results <;> rfl

/-! ## The second stretch (before layer 1) -/

set_option maxHeartbeats 4000000 in
theorem s1_v31 (B : Valuation τ sig (Elt F)) :
    StableHlo.after hostOps1 B (Proc.devRef .tc main_v31)
      = agg16 (B (Proc.devRef .tc main_v20)) (B (Proc.devRef .tc main_arg1)) (B (Proc.devRef .tc main_arg2)) := by
  after_results <;> rfl

theorem s1_v32 (B : Valuation τ sig (Elt F)) :
    StableHlo.after hostOps1 B (Proc.devRef .tc main_v32) = biasRow (B (Proc.devRef .tc main_arg8)) := by
  after_results <;> rfl

theorem s1_keep_v20 (B : Valuation τ sig (Elt F)) :
    StableHlo.after hostOps1 B (Proc.devRef .tc main_v20) = B (Proc.devRef .tc main_v20) := by
  after_results <;> rfl

theorem s1_keep_v8 (B : Valuation τ sig (Elt F)) :
    StableHlo.after hostOps1 B (Proc.devRef .tc main_v8) = B (Proc.devRef .tc main_v8) := by
  after_results <;> rfl

theorem s1_keep_arg1 (B : Valuation τ sig (Elt F)) :
    StableHlo.after hostOps1 B (Proc.devRef .tc main_arg1) = B (Proc.devRef .tc main_arg1) := by
  after_results <;> rfl

theorem s1_keep_arg2 (B : Valuation τ sig (Elt F)) :
    StableHlo.after hostOps1 B (Proc.devRef .tc main_arg2) = B (Proc.devRef .tc main_arg2) := by
  after_results <;> rfl

theorem s1_keep_arg6 (B : Valuation τ sig (Elt F)) :
    StableHlo.after hostOps1 B (Proc.devRef .tc main_arg6) = B (Proc.devRef .tc main_arg6) := by
  after_results <;> rfl

theorem s1_keep_arg7 (B : Valuation τ sig (Elt F)) :
    StableHlo.after hostOps1 B (Proc.devRef .tc main_arg7) = B (Proc.devRef .tc main_arg7) := by
  after_results <;> rfl

theorem s1_keep_arg9 (B : Valuation τ sig (Elt F)) :
    StableHlo.after hostOps1 B (Proc.devRef .tc main_arg9) = B (Proc.devRef .tc main_arg9) := by
  after_results <;> rfl

theorem s1_keep_arg10 (B : Valuation τ sig (Elt F)) :
    StableHlo.after hostOps1 B (Proc.devRef .tc main_arg10) = B (Proc.devRef .tc main_arg10) := by
  after_results <;> rfl

theorem s1_keep_arg11 (B : Valuation τ sig (Elt F)) :
    StableHlo.after hostOps1 B (Proc.devRef .tc main_arg11) = B (Proc.devRef .tc main_arg11) := by
  after_results <;> rfl

/-! ## The third stretch (before layer 2) -/

set_option maxHeartbeats 4000000 in
theorem s2_v44 (B : Valuation τ sig (Elt F)) :
    StableHlo.after hostOps2 B (Proc.devRef .tc main_v44)
      = agg16 (B (Proc.devRef .tc main_v33)) (B (Proc.devRef .tc main_arg1)) (B (Proc.devRef .tc main_arg2)) := by
  after_results <;> rfl

theorem s2_v45 (B : Valuation τ sig (Elt F)) :
    StableHlo.after hostOps2 B (Proc.devRef .tc main_v45) = biasRow (B (Proc.devRef .tc main_arg11)) := by
  after_results <;> rfl

theorem s2_keep_v33 (B : Valuation τ sig (Elt F)) :
    StableHlo.after hostOps2 B (Proc.devRef .tc main_v33) = B (Proc.devRef .tc main_v33) := by
  after_results <;> rfl

theorem s2_keep_v8 (B : Valuation τ sig (Elt F)) :
    StableHlo.after hostOps2 B (Proc.devRef .tc main_v8) = B (Proc.devRef .tc main_v8) := by
  after_results <;> rfl

theorem s2_keep_arg9 (B : Valuation τ sig (Elt F)) :
    StableHlo.after hostOps2 B (Proc.devRef .tc main_arg9) = B (Proc.devRef .tc main_arg9) := by
  after_results <;> rfl

theorem s2_keep_arg10 (B : Valuation τ sig (Elt F)) :
    StableHlo.after hostOps2 B (Proc.devRef .tc main_arg10) = B (Proc.devRef .tc main_arg10) := by
  after_results <;> rfl

end Cert.Sage.Host

end
-- ==== Proof.Chain.lean ====
/-
  The kernel program's result as three layers composed.

  The buffer contents at the six segment boundaries are followed from the launch memory `m` to the end:
  a stretch of host operations is read by the lemmas of the host module, a region replaces its result array by the
  layer's function of the arrays it finds (the region modules) and leaves every other buffer alone. So the first
  hidden layer is `L0 = layerRelu x (agg x) dinv W0s W0n b0` of the argument arrays, the second `L1` the same function of
  `L0` with the second layer's weights, and the result array ends at `layerLin L1 (agg L1) dinv W2s W2n b2`.
-/
import proofs.«166750_j24326694764904_2_alg».proof.Proof.Patched.KernelIdeal.Frame
import proofs.«166750_j24326694764904_2_alg».proof.Proof.Region0
import proofs.«166750_j24326694764904_2_alg».proof.Proof.Region1
import proofs.«166750_j24326694764904_2_alg».proof.Proof.Region2
import proofs.«166750_j24326694764904_2_alg».proof.Proof.Host
import proofs.«166750_j24326694764904_2_alg».proof.Proof.Layer

set_option maxRecDepth 16384

noncomputable section

namespace Cert.Sage.Chain

open Idealize.ShloMosaic Idealize.ShloMosaic.TcCoe Idealize.SL.Sem
open Idealize.ShloMosaic.Pipeline (Dat)
open Cert.KernelIdeal Cert.KernelIdeal.Gen Cert.KernelIdeal.GenP Cert.Sage Cert.Sage.Host

variable (m : (ℓ : Loc nD τ sig) → Buf (Elt Ideal) ℓ) (ρ : Dev nD → PrngReg) (c : Dev nD)

/-! ## Congruences (equal operands give equal layers and equal neighbour sums) -/

theorem relu_congr {h h' ms ms' : (⟨2, ![100000, 64]⟩ : Shape).Idx → EReal} {d d' : (⟨2, ![100000, 1]⟩ : Shape).Idx → EReal}
    {ws ws' wn wn' : (⟨2, ![64, 64]⟩ : Shape).Idx → EReal} {b b' : (⟨2, ![1, 64]⟩ : Shape).Idx → EReal}
    (e0 : h = h') (e1 : ms = ms') (e2 : d = d') (e3 : ws = ws') (e4 : wn = wn') (e5 : b = b') :
    layerRelu h ms d ws wn b = layerRelu h' ms' d' ws' wn' b' := by
  subst e0 e1 e2 e3 e4 e5; rfl

theorem lin_congr {h h' ms ms' : (⟨2, ![100000, 64]⟩ : Shape).Idx → EReal} {d d' : (⟨2, ![100000, 1]⟩ : Shape).Idx → EReal}
    {ws ws' wn wn' : (⟨2, ![64, 64]⟩ : Shape).Idx → EReal} {b b' : (⟨2, ![1, 64]⟩ : Shape).Idx → EReal}
    (e0 : h = h') (e1 : ms = ms') (e2 : d = d') (e3 : ws = ws') (e4 : wn = wn') (e5 : b = b') :
    layerLin h ms d ws wn b = layerLin h' ms' d' ws' wn' b' := by
  subst e0 e1 e2 e3 e4 e5; rfl

theorem agg_congr {y y' : (⟨S100000x64, .f32⟩ : BufTy).Contents (Elt Ideal)} {s s' t t' : (⟨S1600000, .i32⟩ : BufTy).Contents (Elt Ideal)}
    (e0 : y = y') (e1 : s = s') (e2 : t = t') : agg (F := Ideal) y s t = agg (F := Ideal) y' s' t' := by
  subst e0 e1 e2; rfl

theorem bias_congr {b b' : (⟨S64, .f32⟩ : BufTy).Contents (Elt Ideal)} (e : b = b') : biasRow (F := Ideal) b = biasRow (F := Ideal) b' := by
  subst e; rfl

/-- The first hidden layer of the argument arrays. -/
abbrev hidden0 : S100000x64.Idx → EReal :=
  (layerRelu (m ((c : Thread nD τ).loc main_arg0)) (agg (m ((c : Thread nD τ).loc main_arg0)) (m ((c : Thread nD τ).loc main_arg1)) (m ((c : Thread nD τ).loc main_arg2))) (dinv (m ((c : Thread nD τ).loc main_arg2))) (m ((c : Thread nD τ).loc main_arg3)) (m ((c : Thread nD τ).loc main_arg4)) (biasRow (m ((c : Thread nD τ).loc main_arg5))))

/-- The second hidden layer. -/
abbrev hidden1 : S100000x64.Idx → EReal :=
  layerRelu (hidden0 m c) (agg (hidden0 m c) (m ((c : Thread nD τ).loc main_arg1)) (m ((c : Thread nD τ).loc main_arg2))) (dinv (m ((c : Thread nD τ).loc main_arg2))) (m ((c : Thread nD τ).loc main_arg6)) (m ((c : Thread nD τ).loc main_arg7)) (biasRow (m ((c : Thread nD τ).loc main_arg8)))

/-- The output layer. -/
abbrev output : S100000x64.Idx → EReal :=
  layerLin (hidden1 m c) (agg (hidden1 m c) (m ((c : Thread nD τ).loc main_arg1)) (m ((c : Thread nD τ).loc main_arg2))) (dinv (m ((c : Thread nD τ).loc main_arg2))) (m ((c : Thread nD τ).loc main_arg9)) (m ((c : Thread nD τ).loc main_arg10)) (biasRow (m ((c : Thread nD τ).loc main_arg11)))

/-! ## Entering layer 0 -/

theorem a_arg0 : W1 m ρ c (Proc.devRef .tc main_arg0) = (m ((c : Thread nD τ).loc main_arg0)) := s0_keep_arg0 (W0 m ρ c)
theorem a_arg1 : W1 m ρ c (Proc.devRef .tc main_arg1) = (m ((c : Thread nD τ).loc main_arg1)) := s0_keep_arg1 (W0 m ρ c)
theorem a_arg2 : W1 m ρ c (Proc.devRef .tc main_arg2) = (m ((c : Thread nD τ).loc main_arg2)) := s0_keep_arg2 (W0 m ρ c)
theorem a_arg3 : W1 m ρ c (Proc.devRef .tc main_arg3) = (m ((c : Thread nD τ).loc main_arg3)) := s0_keep_arg3 (W0 m ρ c)
theorem a_arg4 : W1 m ρ c (Proc.devRef .tc main_arg4) = (m ((c : Thread nD τ).loc main_arg4)) := s0_keep_arg4 (W0 m ρ c)
theorem a_arg6 : W1 m ρ c (Proc.devRef .tc main_arg6) = (m ((c : Thread nD τ).loc main_arg6)) := s0_keep_arg6 (W0 m ρ c)
theorem a_arg7 : W1 m ρ c (Proc.devRef .tc main_arg7) = (m ((c : Thread nD τ).loc main_arg7)) := s0_keep_arg7 (W0 m ρ c)
theorem a_arg8 : W1 m ρ c (Proc.devRef .tc main_arg8) = (m ((c : Thread nD τ).loc main_arg8)) := s0_keep_arg8 (W0 m ρ c)
theorem a_arg9 : W1 m ρ c (Proc.devRef .tc main_arg9) = (m ((c : Thread nD τ).loc main_arg9)) := s0_keep_arg9 (W0 m ρ c)
theorem a_arg10 : W1 m ρ c (Proc.devRef .tc main_arg10) = (m ((c : Thread nD τ).loc main_arg10)) := s0_keep_arg10 (W0 m ρ c)
theorem a_arg11 : W1 m ρ c (Proc.devRef .tc main_arg11) = (m ((c : Thread nD τ).loc main_arg11)) := s0_keep_arg11 (W0 m ρ c)
theorem a_v18 : W1 m ρ c (Proc.devRef .tc main_v18) = agg (m ((c : Thread nD τ).loc main_arg0)) (m ((c : Thread nD τ).loc main_arg1)) (m ((c : Thread nD τ).loc main_arg2)) := s0_v18 (W0 m ρ c)
theorem a_v8 : W1 m ρ c (Proc.devRef .tc main_v8) = dinv (m ((c : Thread nD τ).loc main_arg2)) := s0_v8 (W0 m ρ c)
theorem a_v19 : W1 m ρ c (Proc.devRef .tc main_v19) = biasRow (m ((c : Thread nD τ).loc main_arg5)) := s0_v19 (W0 m ρ c)

/-! ## Leaving layer 0 -/

theorem b_v20 : W2 m ρ c (Proc.devRef .tc main_v20) = hidden0 m c := by
  refine (W2_arr m ρ c 6).trans ((Region0.final (V1 m ρ) c).trans ?_)
  exact relu_congr (a_arg0 m ρ c) (a_v18 m ρ c) (a_v8 m ρ c) (a_arg3 m ρ c) (a_arg4 m ρ c) (a_v19 m ρ c)
theorem b_v8 : W2 m ρ c (Proc.devRef .tc main_v8) = dinv (m ((c : Thread nD τ).loc main_arg2)) :=
  ((W2_arr m ρ c 2).trans (((dat0 (V1 m ρ) c).arrAt_in 2 rfl _).trans (A_eq0 (V1 m ρ) c 2))).trans (a_v8 m ρ c)
theorem b_arg1 : W2 m ρ c (Proc.devRef .tc main_arg1) = (m ((c : Thread nD τ).loc main_arg1)) := (W2_of_ne m ρ c main_arg1 (by decide)).trans (a_arg1 m ρ c)
theorem b_arg2 : W2 m ρ c (Proc.devRef .tc main_arg2) = (m ((c : Thread nD τ).loc main_arg2)) := (W2_of_ne m ρ c main_arg2 (by decide)).trans (a_arg2 m ρ c)
theorem b_arg6 : W2 m ρ c (Proc.devRef .tc main_arg6) = (m ((c : Thread nD τ).loc main_arg6)) := (W2_of_ne m ρ c main_arg6 (by decide)).trans (a_arg6 m ρ c)
theorem b_arg7 : W2 m ρ c (Proc.devRef .tc main_arg7) = (m ((c : Thread nD τ).loc main_arg7)) := (W2_of_ne m ρ c main_arg7 (by decide)).trans (a_arg7 m ρ c)
theorem b_arg8 : W2 m ρ c (Proc.devRef .tc main_arg8) = (m ((c : Thread nD τ).loc main_arg8)) := (W2_of_ne m ρ c main_arg8 (by decide)).trans (a_arg8 m ρ c)
theorem b_arg9 : W2 m ρ c (Proc.devRef .tc main_arg9) = (m ((c : Thread nD τ).loc main_arg9)) := (W2_of_ne m ρ c main_arg9 (by decide)).trans (a_arg9 m ρ c)
theorem b_arg10 : W2 m ρ c (Proc.devRef .tc main_arg10) = (m ((c : Thread nD τ).loc main_arg10)) := (W2_of_ne m ρ c main_arg10 (by decide)).trans (a_arg10 m ρ c)
theorem b_arg11 : W2 m ρ c (Proc.devRef .tc main_arg11) = (m ((c : Thread nD τ).loc main_arg11)) := (W2_of_ne m ρ c main_arg11 (by decide)).trans (a_arg11 m ρ c)

/-! ## Entering layer 1 -/

theorem c_v20 : W3 m ρ c (Proc.devRef .tc main_v20) = hidden0 m c := (s1_keep_v20 (W2 m ρ c)).trans (b_v20 m ρ c)
theorem c_v8 : W3 m ρ c (Proc.devRef .tc main_v8) = dinv (m ((c : Thread nD τ).loc main_arg2)) := (s1_keep_v8 (W2 m ρ c)).trans (b_v8 m ρ c)
theorem c_arg1 : W3 m ρ c (Proc.devRef .tc main_arg1) = (m ((c : Thread nD τ).loc main_arg1)) := (s1_keep_arg1 (W2 m ρ c)).trans (b_arg1 m ρ c)
theorem c_arg2 : W3 m ρ c (Proc.devRef .tc main_arg2) = (m ((c : Thread nD τ).loc main_arg2)) := (s1_keep_arg2 (W2 m ρ c)).trans (b_arg2 m ρ c)
theorem c_arg6 : W3 m ρ c (Proc.devRef .tc main_arg6) = (m ((c : Thread nD τ).loc main_arg6)) := (s1_keep_arg6 (W2 m ρ c)).trans (b_arg6 m ρ c)
theorem c_arg7 : W3 m ρ c (Proc.devRef .tc main_arg7) = (m ((c : Thread nD τ).loc main_arg7)) := (s1_keep_arg7 (W2 m ρ c)).trans (b_arg7 m ρ c)
theorem c_arg9 : W3 m ρ c (Proc.devRef .tc main_arg9) = (m ((c : Thread nD τ).loc main_arg9)) := (s1_keep_arg9 (W2 m ρ c)).trans (b_arg9 m ρ c)
theorem c_arg10 : W3 m ρ c (Proc.devRef .tc main_arg10) = (m ((c : Thread nD τ).loc main_arg10)) := (s1_keep_arg10 (W2 m ρ c)).trans (b_arg10 m ρ c)
theorem c_arg11 : W3 m ρ c (Proc.devRef .tc main_arg11) = (m ((c : Thread nD τ).loc main_arg11)) := (s1_keep_arg11 (W2 m ρ c)).trans (b_arg11 m ρ c)
theorem c_v31 : W3 m ρ c (Proc.devRef .tc main_v31) = agg (hidden0 m c) (m ((c : Thread nD τ).loc main_arg1)) (m ((c : Thread nD τ).loc main_arg2)) :=
  (s1_v31 (W2 m ρ c)).trans ((agg16_eq _ _ _).trans (agg_congr (b_v20 m ρ c) (b_arg1 m ρ c) (b_arg2 m ρ c)))
theorem c_v32 : W3 m ρ c (Proc.devRef .tc main_v32) = biasRow (m ((c : Thread nD τ).loc main_arg8)) :=
  (s1_v32 (W2 m ρ c)).trans (bias_congr (b_arg8 m ρ c))

/-! ## Leaving layer 1 -/

theorem d_v33 : W4 m ρ c (Proc.devRef .tc main_v33) = hidden1 m c := by
  refine (W4_arr m ρ c 6).trans ((Region1.final (V3 m ρ) c).trans ?_)
  exact relu_congr (c_v20 m ρ c) (c_v31 m ρ c) (c_v8 m ρ c) (c_arg6 m ρ c) (c_arg7 m ρ c) (c_v32 m ρ c)
theorem d_v8 : W4 m ρ c (Proc.devRef .tc main_v8) = dinv (m ((c : Thread nD τ).loc main_arg2)) :=
  ((W4_arr m ρ c 2).trans (((dat1 (V3 m ρ) c).arrAt_in 2 rfl _).trans (A_eq1 (V3 m ρ) c 2))).trans (c_v8 m ρ c)
theorem d_arg1 : W4 m ρ c (Proc.devRef .tc main_arg1) = (m ((c : Thread nD τ).loc main_arg1)) := (W4_of_ne m ρ c main_arg1 (by decide)).trans (c_arg1 m ρ c)
theorem d_arg2 : W4 m ρ c (Proc.devRef .tc main_arg2) = (m ((c : Thread nD τ).loc main_arg2)) := (W4_of_ne m ρ c main_arg2 (by decide)).trans (c_arg2 m ρ c)
theorem d_arg9 : W4 m ρ c (Proc.devRef .tc main_arg9) = (m ((c : Thread nD τ).loc main_arg9)) := (W4_of_ne m ρ c main_arg9 (by decide)).trans (c_arg9 m ρ c)
theorem d_arg10 : W4 m ρ c (Proc.devRef .tc main_arg10) = (m ((c : Thread nD τ).loc main_arg10)) := (W4_of_ne m ρ c main_arg10 (by decide)).trans (c_arg10 m ρ c)
theorem d_arg11 : W4 m ρ c (Proc.devRef .tc main_arg11) = (m ((c : Thread nD τ).loc main_arg11)) := (W4_of_ne m ρ c main_arg11 (by decide)).trans (c_arg11 m ρ c)

/-! ## Entering layer 2 -/

theorem e_v33 : W5 m ρ c (Proc.devRef .tc main_v33) = hidden1 m c := (s2_keep_v33 (W4 m ρ c)).trans (d_v33 m ρ c)
theorem e_v8 : W5 m ρ c (Proc.devRef .tc main_v8) = dinv (m ((c : Thread nD τ).loc main_arg2)) := (s2_keep_v8 (W4 m ρ c)).trans (d_v8 m ρ c)
theorem e_arg9 : W5 m ρ c (Proc.devRef .tc main_arg9) = (m ((c : Thread nD τ).loc main_arg9)) := (s2_keep_arg9 (W4 m ρ c)).trans (d_arg9 m ρ c)
theorem e_arg10 : W5 m ρ c (Proc.devRef .tc main_arg10) = (m ((c : Thread nD τ).loc main_arg10)) := (s2_keep_arg10 (W4 m ρ c)).trans (d_arg10 m ρ c)
theorem e_v44 : W5 m ρ c (Proc.devRef .tc main_v44) = agg (hidden1 m c) (m ((c : Thread nD τ).loc main_arg1)) (m ((c : Thread nD τ).loc main_arg2)) :=
  (s2_v44 (W4 m ρ c)).trans ((agg16_eq _ _ _).trans (agg_congr (d_v33 m ρ c) (d_arg1 m ρ c) (d_arg2 m ρ c)))
theorem e_v45 : W5 m ρ c (Proc.devRef .tc main_v45) = biasRow (m ((c : Thread nD τ).loc main_arg11)) :=
  (s2_v45 (W4 m ρ c)).trans (bias_congr (d_arg11 m ρ c))

/-! ## The result -/

/-- The result array after the last region is the three layers composed, of the argument arrays. -/
theorem result_eq : W6 m ρ c (Proc.devRef .tc main_v46) = output m c := by
  refine (W6_arr m ρ c 6).trans ((Region2.final (V5 m ρ) c).trans ?_)
  exact lin_congr (e_v33 m ρ c) (e_v44 m ρ c) (e_v8 m ρ c) (e_arg9 m ρ c) (e_arg10 m ρ c) (e_v45 m ρ c)

end Cert.Sage.Chain

end
-- ==== Proof.RefLayer.lean ====
/-
  The reference's layer, read at an index.

  The reference computes a layer as two whole contractions over the 64 input features, their sum, the bias spread over
  the nodes, and (in the two hidden layers) the maximum with a zero array. On the extended reals a contraction read at
  node `r`, feature `q` is the sum over the contracted feature of the products, a spread column or row is read at its
  own coordinate, so the whole expression is the function `Cert.Sage.layerLin` (`layerRelu` with the maximum) of its
  operands — for any operands.
-/
import proofs.«166750_j24326694764904_2_alg».proof.Proof.Gen.ReferenceIdeal.Read
import proofs.«166750_j24326694764904_2_alg».proof.Proof.Layer
import Idealize.ShloMosaic.PureOps.Ideal.Laws
import Idealize.ShloMosaic.Lib.ValueIdx
import Idealize.ShloMosaic.Lib.Pipeline.Value

noncomputable section

namespace Cert.Sage.Ref

open Idealize.ShloMosaic Idealize.ShloMosaic.ValueIdx Cert.ReferenceIdeal Cert.ReferenceIdeal.Gen

/-- A whole [100000,64]·[64,64] contraction at node `r`, feature `q`: Σ_k l[r,k]·w[k,q]. -/
theorem dot_apply (l : (⟨S100000x64, .f32⟩ : BufTy).Contents (Elt Ideal)) (w : (⟨S64x64, .f32⟩ : BufTy).Contents (Elt Ideal)) (r : Fin 100000) (q : Fin 64) :
    Host.dotGeneral (F := Ideal) (φ₁ := .f32) (φ₂ := .f32) dot_S100000x64_S64x64_S100000x64_1_0_0_1_n_n none l w (ix2 r q) = ∑ k : Fin 64, l (ix2 r k) * w (ix2 k q) := by
  refine (Read.val_main_v21_apply l w (ix2 r q)).trans (Finset.sum_congr rfl fun k _ => ?_)
  have el : Read.lidx_main_v21 (ix2 r q) k = ix2 r k := funext fun a => by
    match a with
    | ⟨0, _⟩ => rfl
    | ⟨1, _⟩ => rfl
  have er : Read.ridx_main_v21 (ix2 r q) k = ix2 k q := funext fun a => by
    match a with
    | ⟨0, _⟩ => rfl
    | ⟨1, _⟩ => rfl
  rw [el, er]

/-- The reciprocal-degree column spread over the features: node `r` reads the column's row `r`. -/
theorem bcast_col (d : (⟨S100000x1, .f32⟩ : BufTy).Contents (Elt Ideal)) (r : Fin 100000) (q : Fin 64) :
    broadcastInDim S100000x64 ![0, 1] bcast_S100000x1_S100000x64_0_1 d (ix2 r q) = d (ix2 r (0 : Fin 1)) :=
  broadcastInDim_apply _ bcast_S100000x1_S100000x64_0_1 d (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- The bias row spread over the nodes: feature `q` reads the row's entry `q`. -/
theorem bcast_row (b : (⟨S1x64, .f32⟩ : BufTy).Contents (Elt Ideal)) (r : Fin 100000) (q : Fin 64) :
    broadcastInDim S100000x64 ![0, 1] bcast_S1x64_S100000x64_0_1 b (ix2 r q) = b (ix2 (0 : Fin 1) q) :=
  broadcastInDim_apply _ bcast_S1x64_S100000x64_0_1 b (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])

/-- The zero array of the activation is zero everywhere. -/
theorem zeros_apply (i : S100000x64.Idx) :
    broadcastInDim S100000x64 ![] bcast_S_S100000x64 (constant (F := Ideal) S_ .f32 0x00000000#32) i = (0 : EReal) := by
  rw [broadcastInDim_apply _ bcast_S_S100000x64 (constant (F := Ideal) S_ .f32 0x00000000#32) i (fun a => a.elim0) (fun a => a.elim0)]
  exact Ideal.ofBits_zero_f32

/-- The reference's layer without activation is `layerLin` of its operands. -/
theorem lin_eq (h msum : (⟨S100000x64, .f32⟩ : BufTy).Contents (Elt Ideal)) (d : (⟨S100000x1, .f32⟩ : BufTy).Contents (Elt Ideal)) (ws wn : (⟨S64x64, .f32⟩ : BufTy).Contents (Elt Ideal)) (b : (⟨S1x64, .f32⟩ : BufTy).Contents (Elt Ideal)) :
    addf (addf (Host.dotGeneral (F := Ideal) (φ₁ := .f32) (φ₂ := .f32) dot_S100000x64_S64x64_S100000x64_1_0_0_1_n_n none h ws)
        (Host.dotGeneral (F := Ideal) (φ₁ := .f32) (φ₂ := .f32) dot_S100000x64_S64x64_S100000x64_1_0_0_1_n_n none (mulf (F := Ideal) (φ := .f32) msum (broadcastInDim S100000x64 ![0, 1] bcast_S100000x1_S100000x64_0_1 d)) wn))
      (broadcastInDim S100000x64 ![0, 1] bcast_S1x64_S100000x64_0_1 b)
      = Cert.Sage.layerLin h msum d ws wn b := by
  funext i
  obtain ⟨r, q, rfl⟩ : ∃ (r : Fin 100000) (q : Fin 64), i = ix2 r q := ⟨i 0, i 1, eq_ix2 i⟩
  show (Host.dotGeneral (F := Ideal) (φ₁ := .f32) (φ₂ := .f32) dot_S100000x64_S64x64_S100000x64_1_0_0_1_n_n none h ws (ix2 r q)
      + Host.dotGeneral (F := Ideal) (φ₁ := .f32) (φ₂ := .f32) dot_S100000x64_S64x64_S100000x64_1_0_0_1_n_n none (mulf (F := Ideal) (φ := .f32) msum (broadcastInDim S100000x64 ![0, 1] bcast_S100000x1_S100000x64_0_1 d)) wn (ix2 r q))
      + broadcastInDim S100000x64 ![0, 1] bcast_S1x64_S100000x64_0_1 b (ix2 r q) = Cert.Sage.pre h msum d ws wn b r q
  rw [dot_apply, dot_apply, bcast_row]
  unfold Cert.Sage.pre
  refine congrArg (fun s => (_ + s) + _) (Finset.sum_congr rfl fun k _ => ?_)
  show (msum (ix2 r k) * broadcastInDim S100000x64 ![0, 1] bcast_S100000x1_S100000x64_0_1 d (ix2 r k)) * wn (ix2 k q) = _
  rw [bcast_col]

/-- The reference's hidden layer (the maximum with the zero array) is `layerRelu` of its operands. -/
theorem relu_eq (h msum : (⟨S100000x64, .f32⟩ : BufTy).Contents (Elt Ideal)) (d : (⟨S100000x1, .f32⟩ : BufTy).Contents (Elt Ideal)) (ws wn : (⟨S64x64, .f32⟩ : BufTy).Contents (Elt Ideal)) (b : (⟨S1x64, .f32⟩ : BufTy).Contents (Elt Ideal)) :
    maximumf (addf (addf (Host.dotGeneral (F := Ideal) (φ₁ := .f32) (φ₂ := .f32) dot_S100000x64_S64x64_S100000x64_1_0_0_1_n_n none h ws)
        (Host.dotGeneral (F := Ideal) (φ₁ := .f32) (φ₂ := .f32) dot_S100000x64_S64x64_S100000x64_1_0_0_1_n_n none (mulf (F := Ideal) (φ := .f32) msum (broadcastInDim S100000x64 ![0, 1] bcast_S100000x1_S100000x64_0_1 d)) wn))
      (broadcastInDim S100000x64 ![0, 1] bcast_S1x64_S100000x64_0_1 b))
      (broadcastInDim S100000x64 ![] bcast_S_S100000x64 (constant S_ .f32 0x00000000#32))
      = Cert.Sage.layerRelu h msum d ws wn b := by
  rw [lin_eq]
  funext i
  show max (Cert.Sage.layerLin h msum d ws wn b i) (broadcastInDim S100000x64 ![] bcast_S_S100000x64 (constant (F := Ideal) S_ .f32 0x00000000#32) i) = _
  rw [zeros_apply]
  rfl

end Cert.Sage.Ref

end
-- ==== Proof.Bridge.lean ====
/-
  The reference's result is the same three layers composed.

  The reference's run ends with its result at one composed term of the argument arrays: per layer the gather of the
  source rows, the scatter-add into the destination rows, the product with the reciprocal-degree column, the two
  contractions, the bias, the maximum with zero. The layer part of that term is `layerLin` / `layerRelu` of its
  operands (the reference-layer module); the neighbour sums and the reciprocal degrees are literally the host functions
  the kernel program applies (the same operations with the same dimension numbers); the bias spread from a vector to a
  row reads the same entries as the vector re-shaped to a row. Hence the reference's result is `output` of its arguments.
-/
import proofs.«166750_j24326694764904_2_alg».proof.Proof.Gen.ReferenceIdeal.Run
import proofs.«166750_j24326694764904_2_alg».proof.Proof.RefLayer
import proofs.«166750_j24326694764904_2_alg».proof.Proof.Host
import proofs.«166750_j24326694764904_2_alg».proof.Proof.Layer
import Idealize.ShloMosaic.Lib.ValueLayout

set_option maxRecDepth 16384

noncomputable section

namespace Cert.Sage.Bridge

open Idealize.ShloMosaic Idealize.ShloMosaic.TcCoe Idealize.SL.Sem Idealize.ShloMosaic.ValueIdx
open Cert.ReferenceIdeal Cert.ReferenceIdeal.Gen Cert.Sage

/-- The reference's layer without activation, as one function of its operands. -/
def refLin (h msum : (⟨S100000x64, .f32⟩ : BufTy).Contents (Elt Ideal)) (d : (⟨S100000x1, .f32⟩ : BufTy).Contents (Elt Ideal)) (ws wn : (⟨S64x64, .f32⟩ : BufTy).Contents (Elt Ideal)) (b : (⟨S1x64, .f32⟩ : BufTy).Contents (Elt Ideal)) :
    (⟨S100000x64, .f32⟩ : BufTy).Contents (Elt Ideal) :=
  addf (addf (Host.dotGeneral (F := Ideal) (φ₁ := .f32) (φ₂ := .f32) dot_S100000x64_S64x64_S100000x64_1_0_0_1_n_n none h ws)
      (Host.dotGeneral (F := Ideal) (φ₁ := .f32) (φ₂ := .f32) dot_S100000x64_S64x64_S100000x64_1_0_0_1_n_n none (mulf (F := Ideal) (φ := .f32) msum (broadcastInDim S100000x64 ![0, 1] bcast_S100000x1_S100000x64_0_1 d)) wn))
    (broadcastInDim S100000x64 ![0, 1] bcast_S1x64_S100000x64_0_1 b)

/-- The reference's hidden layer, as one function of its operands. -/
def refRelu (h msum : (⟨S100000x64, .f32⟩ : BufTy).Contents (Elt Ideal)) (d : (⟨S100000x1, .f32⟩ : BufTy).Contents (Elt Ideal)) (ws wn : (⟨S64x64, .f32⟩ : BufTy).Contents (Elt Ideal)) (b : (⟨S1x64, .f32⟩ : BufTy).Contents (Elt Ideal)) :
    (⟨S100000x64, .f32⟩ : BufTy).Contents (Elt Ideal) :=
  maximumf (refLin h msum d ws wn b) (broadcastInDim S100000x64 ![] bcast_S_S100000x64 (constant (F := Ideal) S_ .f32 0x00000000#32))

theorem refLin_eq (h msum : (⟨S100000x64, .f32⟩ : BufTy).Contents (Elt Ideal)) (d : (⟨S100000x1, .f32⟩ : BufTy).Contents (Elt Ideal)) (ws wn : (⟨S64x64, .f32⟩ : BufTy).Contents (Elt Ideal)) (b : (⟨S1x64, .f32⟩ : BufTy).Contents (Elt Ideal)) :
    refLin h msum d ws wn b = layerLin h msum d ws wn b := Ref.lin_eq h msum d ws wn b

theorem refRelu_eq (h msum : (⟨S100000x64, .f32⟩ : BufTy).Contents (Elt Ideal)) (d : (⟨S100000x1, .f32⟩ : BufTy).Contents (Elt Ideal)) (ws wn : (⟨S64x64, .f32⟩ : BufTy).Contents (Elt Ideal)) (b : (⟨S1x64, .f32⟩ : BufTy).Contents (Elt Ideal)) :
    refRelu h msum d ws wn b = layerRelu h msum d ws wn b := Ref.relu_eq h msum d ws wn b

/-- The bias vector spread to a row reads the same entries as the vector re-shaped to a row. -/
theorem bias_ref (b : (⟨S64, .f32⟩ : BufTy).Contents (Elt Ideal)) :
    broadcastInDim S1x64 ![1] bcast_S64_S1x64_1 b = Cert.Sage.Host.biasRow (F := Ideal) b := by
  funext i
  obtain ⟨z, q, rfl⟩ : ∃ (z : Fin 1) (q : Fin 64), i = ix2 z q := ⟨i 0, i 1, eq_ix2 i⟩
  have hz : z = 0 := Subsingleton.elim _ _
  subst hz
  show _ = shapeCast Cert.KernelIdeal.S1x64 b Cert.KernelIdeal.Gen.shapeCasts_S64_S1x64 (ix2 (0 : Fin 1) q)
  rw [shapeCast_a_1a_apply]
  exact broadcastInDim_apply _ bcast_S64_S1x64_1 b (ix2 (0 : Fin 1) q) (ix1 q) (fun a => match a with
    | ⟨0, _⟩ => by show q.val = if (64 : Nat) = 1 then 0 else q.val; rw [if_neg (by decide)])

/-- The reference's neighbour sums are the kernel program's host function. -/
theorem agg_ref (y : (⟨S100000x64, .f32⟩ : BufTy).Contents (Elt Ideal)) (src dst : (⟨S1600000, .i32⟩ : BufTy).Contents (Elt Ideal)) :
    Host.scatterAdd (F := Ideal) (φ := .f32) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 y
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      = Cert.Sage.Host.agg (F := Ideal) y src dst := rfl

/-- The reference's reciprocal degrees are the kernel program's host function. -/
theorem dinv_ref (dst : (⟨S1600000, .i32⟩ : BufTy).Contents (Elt Ideal)) :
    broadcastInDim S100000x1 ![0] bcast_S100000_S100000x1_0
      (Host.divf (F := Ideal) (φ := .f32) (broadcastInDim S100000 ![] bcast_S_S100000 (constant (F := Ideal) S_ .f32 0x3F800000#32))
        (maximumf (F := Ideal) (φ := .f32)
          (Host.scatterAdd (F := Ideal) (φ := .f32) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32))))
      = Cert.Sage.Host.dinv (F := Ideal) dst := rfl

variable (m' : (ℓ : Loc Cert.ReferenceIdeal.nD Cert.ReferenceIdeal.τ Cert.ReferenceIdeal.sig) → Buf (Elt Ideal) ℓ) (c : Dev Cert.ReferenceIdeal.nD)

/-- The three layers composed, of the reference's argument arrays. -/
abbrev refHidden0 : S100000x64.Idx → EReal :=
  layerRelu (m' ((c.tc : Thread Cert.ReferenceIdeal.nD Cert.ReferenceIdeal.τ).loc Cert.ReferenceIdeal.main_arg0)) (Cert.Sage.Host.agg (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.Sage.Host.dinv (F := Ideal) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (Cert.Sage.Host.biasRow (F := Ideal) (m' ((c.tc : Thread Cert.ReferenceIdeal.nD Cert.ReferenceIdeal.τ).loc Cert.ReferenceIdeal.main_arg5)))
abbrev refHidden1 : S100000x64.Idx → EReal :=
  layerRelu (refHidden0 m' c) (Cert.Sage.Host.agg (F := Ideal) (refHidden0 m' c) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.Sage.Host.dinv (F := Ideal) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (Cert.Sage.Host.biasRow (F := Ideal) (m' ((c.tc : Thread Cert.ReferenceIdeal.nD Cert.ReferenceIdeal.τ).loc Cert.ReferenceIdeal.main_arg8)))
abbrev refOutput : S100000x64.Idx → EReal :=
  layerLin (refHidden1 m' c) (Cert.Sage.Host.agg (F := Ideal) (refHidden1 m' c) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.Sage.Host.dinv (F := Ideal) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (Cert.Sage.Host.biasRow (F := Ideal) (m' ((c.tc : Thread Cert.ReferenceIdeal.nD Cert.ReferenceIdeal.τ).loc Cert.ReferenceIdeal.main_arg11)))

set_option maxHeartbeats 4000000 in
/-- The reference's composed result term, layer by layer. -/
theorem ref_layers : Cert.ReferenceIdeal.Value.res_main_v64 (F := Ideal) m' c
    = refLin (refRelu (refRelu (m' ((c.tc : Thread Cert.ReferenceIdeal.nD Cert.ReferenceIdeal.τ).loc Cert.ReferenceIdeal.main_arg0)) (Cert.Sage.Host.agg (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.Sage.Host.dinv (F := Ideal) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (broadcastInDim S1x64 ![1] bcast_S64_S1x64_1 (m' ((c.tc : Thread Cert.ReferenceIdeal.nD Cert.ReferenceIdeal.τ).loc Cert.ReferenceIdeal.main_arg5)))) (Cert.Sage.Host.agg (F := Ideal) (refRelu (m' ((c.tc : Thread Cert.ReferenceIdeal.nD Cert.ReferenceIdeal.τ).loc Cert.ReferenceIdeal.main_arg0)) (Cert.Sage.Host.agg (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.Sage.Host.dinv (F := Ideal) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (broadcastInDim S1x64 ![1] bcast_S64_S1x64_1 (m' ((c.tc : Thread Cert.ReferenceIdeal.nD Cert.ReferenceIdeal.τ).loc Cert.ReferenceIdeal.main_arg5)))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.Sage.Host.dinv (F := Ideal) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (broadcastInDim S1x64 ![1] bcast_S64_S1x64_1 (m' ((c.tc : Thread Cert.ReferenceIdeal.nD Cert.ReferenceIdeal.τ).loc Cert.ReferenceIdeal.main_arg8)))) (Cert.Sage.Host.agg (F := Ideal) (refRelu (refRelu (m' ((c.tc : Thread Cert.ReferenceIdeal.nD Cert.ReferenceIdeal.τ).loc Cert.ReferenceIdeal.main_arg0)) (Cert.Sage.Host.agg (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.Sage.Host.dinv (F := Ideal) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (broadcastInDim S1x64 ![1] bcast_S64_S1x64_1 (m' ((c.tc : Thread Cert.ReferenceIdeal.nD Cert.ReferenceIdeal.τ).loc Cert.ReferenceIdeal.main_arg5)))) (Cert.Sage.Host.agg (F := Ideal) (refRelu (m' ((c.tc : Thread Cert.ReferenceIdeal.nD Cert.ReferenceIdeal.τ).loc Cert.ReferenceIdeal.main_arg0)) (Cert.Sage.Host.agg (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.Sage.Host.dinv (F := Ideal) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (broadcastInDim S1x64 ![1] bcast_S64_S1x64_1 (m' ((c.tc : Thread Cert.ReferenceIdeal.nD Cert.ReferenceIdeal.τ).loc Cert.ReferenceIdeal.main_arg5)))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.Sage.Host.dinv (F := Ideal) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (broadcastInDim S1x64 ![1] bcast_S64_S1x64_1 (m' ((c.tc : Thread Cert.ReferenceIdeal.nD Cert.ReferenceIdeal.τ).loc Cert.ReferenceIdeal.main_arg8)))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.Sage.Host.dinv (F := Ideal) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (broadcastInDim S1x64 ![1] bcast_S64_S1x64_1 (m' ((c.tc : Thread Cert.ReferenceIdeal.nD Cert.ReferenceIdeal.τ).loc Cert.ReferenceIdeal.main_arg11))) := by
  unfold Cert.ReferenceIdeal.Value.res_main_v64
  rfl

set_option maxHeartbeats 4000000 in
/-- The reference's composed result term is the three layers composed. -/
theorem ref_result : Cert.ReferenceIdeal.Value.res_main_v64 (F := Ideal) m' c = refOutput m' c := by
  rw [ref_layers]
  simp only [refRelu_eq, refLin_eq]
  unfold refOutput refHidden1 refHidden0
  rw [← bias_ref (m' ((c.tc : Thread Cert.ReferenceIdeal.nD Cert.ReferenceIdeal.τ).loc Cert.ReferenceIdeal.main_arg5)), ← bias_ref (m' ((c.tc : Thread Cert.ReferenceIdeal.nD Cert.ReferenceIdeal.τ).loc Cert.ReferenceIdeal.main_arg8)), ← bias_ref (m' ((c.tc : Thread Cert.ReferenceIdeal.nD Cert.ReferenceIdeal.τ).loc Cert.ReferenceIdeal.main_arg11))]

end Cert.Sage.Bridge

end
-- ==== Proof.lean ====
/-
  A three-layer GraphSAGE network — per layer the mean of the in-neighbours' features (gather at the source nodes,
  scatter-add into the destination nodes, times the reciprocal of the clamped in-degree), two 64×64 linear maps, a bias,
  and between layers the maximum with zero — as a kernel program of three gridded regions among host operations, against
  a plain reference; equal on the extended reals.

  Why they agree. Both programs run the SAME host operations for the degrees and the neighbour sums; they differ in the
  dense part of a layer: the kernel computes it on 20 row blocks of 5000 nodes through the matrix unit (operands
  narrowed to the two-byte format, which is the identity on the extended reals, and the two hidden layers' results
  stored in that format, again the identity), the reference by two whole contractions. Read at a node `r` and feature
  `q` both are  Σ_k h[r,k]·Ws[k,q] + Σ_k (msum[r,k]·dinv[r])·Wn[k,q] + b[q]  with the three summands grouped the same
  way, so the two sides are the same function of the same operands, layer by layer; no finiteness is needed.

  The modules: `Layer` states the layer's function; `Body` reads a block's stored value at an index; `Region0/1/2` turn
  the blocks of a region into the whole array after it; `Host` reads the stretches of host operations; `Run` is the
  program's run with the result array named; `Chain` follows the buffers from the launch to the result; `RefLayer` and
  `Bridge` read the reference's composed result term as the same three layers. The frames of the two kernel programs
  are the frame modules': every weakly fair execution terminates, nothing faults, the arguments end unchanged; the
  reference's frame is its run with the result dropped; the idealization rewrote nothing, so `preserves` is trivial.
-/
import proofs.«166750_j24326694764904_2_alg».proof.Defs
import proofs.«166750_j24326694764904_2_alg».proof.Proof.Gen.Kernel
import proofs.«166750_j24326694764904_2_alg».proof.Proof.Gen.KernelIdeal
import proofs.«166750_j24326694764904_2_alg».proof.Proof.Gen.ReferenceIdeal
import proofs.«166750_j24326694764904_2_alg».proof.Proof.Gen.Pre_finite_inputs
import proofs.«166750_j24326694764904_2_alg».proof.Proof.Gen.ReferenceIdeal.Run
import proofs.«166750_j24326694764904_2_alg».proof.Proof.Gen.ReferenceIdeal.Read
import proofs.«166750_j24326694764904_2_alg».proof.Proof.Patched.Kernel.Frame
import proofs.«166750_j24326694764904_2_alg».proof.Proof.Patched.KernelIdeal.Frame
import proofs.«166750_j24326694764904_2_alg».proof.Proof.Run
import proofs.«166750_j24326694764904_2_alg».proof.Proof.Chain
import proofs.«166750_j24326694764904_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Arguments that agree give the same three layers composed. -/
theorem outputs_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.Sage.Bridge.refOutput m' c = Cert.Sage.Chain.output m c := by
  obtain ⟨e0, e1, e2, e3, e4, e5, e6, e7, e8, e9, e10, e11⟩ := h
  unfold Cert.Sage.Bridge.refOutput Cert.Sage.Bridge.refHidden1 Cert.Sage.Bridge.refHidden0
  rw [e0, e1, e2, e3, e4, e5, e6, e7, e8, e9, e10, e11]

/-- On the extended reals, from memories agreeing on the arguments, both programs end with the three layers composed
    in their result arrays. -/
theorem algebraic : Cert.algebraic_KernelIdeal_ReferenceIdeal := by
  intro m ρ m' ρ' _ hagree
  refine ⟨fun c => Cert.Sage.Chain.output m c, ?_, ?_⟩
  · exact (θ_run Cert.KernelIdeal.defs _ _).mono
      (fun _ h c => ⟨(h c).1.trans (Cert.Sage.Chain.result_eq m ρ c), (h c).2⟩)
      (Cert.Sage.Run.run_result (F := Ideal) m ρ)
  · exact (θ_run Cert.ReferenceIdeal.defs _ _).mono
      (fun _ h c => ⟨(h c).1.trans ((Cert.Sage.Bridge.ref_result m' c).trans (outputs_agree m m' c (hagree c))), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
